-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v99_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1200000 : Shape := ⟨1, ![1200000]⟩
abbrev S3x64x64 : Shape := ⟨3, ![3, 64, 64]⟩
abbrev S3x64 : Shape := ⟨2, ![3, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_

variable [Facts]

def fn_part2 {F : FTy → Type} [FloatOps F] (main_arg9 : FVec F S3x64x64 .f32) (main_arg10 : FVec F S3x64 .f32) (main_v33 : IVec S_ 1) : IVec S_ 1 :=
  let main_v34 : FVec F S3x64x64 .f32 := Host.absf main_arg9
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64 .f32 := Host.absf main_arg10
  let main_cst_14 : FVec F S_ .f32 := constant S_ .f32 0x7F800000#32
  let main_v40 : FVec F S3x64 .f32 := broadcastInDim S3x64 ![] bcast_S_S3x64 main_cst_14
  let main_v41 : IVec S3x64 1 := cmpf .olt main_v39 main_v40
  let main_c_15 : IVec S_ 1 := constantI S_ 1 1#1
  let main_v42 : IVec S_ 1 := (fun x v => Host.reduce IntOp.andi x v reducesTo_S3x64_S_d0_1 h_S_) main_v41 main_c_15
  let main_v43 : IVec S_ 1 := andi main_v38 main_v42
  main_v43

def fn_part1 {F : FTy → Type} [FloatOps F] (main_arg6 : FVec F S3x64 .f32) (main_arg7 : FVec F S3x64 .f32) (main_arg8 : FVec F S3x64 .f32) (main_arg9 : FVec F S3x64x64 .f32) (main_arg10 : FVec F S3x64 .f32) (main_v13 : IVec S_ 1) (main_v16 : IVec S3x64 1) : IVec S_ 1 :=
  let main_c_5 : IVec S_ 1 := constantI S_ 1 1#1
  let main_v17 : IVec S_ 1 := (fun x v => Host.reduce IntOp.andi x v reducesTo_S3x64_S_d0_1 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S1200000 32) (main_arg2 : IVec S1200000 32) (main_arg3 : FVec F S3x64x64 .f32) (main_arg4 : FVec F S3x64 .f32) (main_arg5 : FVec F S3x64 .f32) (main_arg6 : FVec F S3x64 .f32) (main_arg7 : FVec F S3x64 .f32) (main_arg8 : FVec F S3x64 .f32) (main_arg9 : FVec F S3x64x64 .f32) (main_arg10 : FVec F S3x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg3
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg4
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x64 .f32 := Host.absf main_arg5
  let main_cst_4 : FVec F S_ .f32 := constant S_ .f32 0x7F800000#32
  let main_v15 : FVec F S3x64 .f32 := broadcastInDim S3x64 ![] bcast_S_S3x64 main_cst_4
  let main_v16 : IVec S3x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S1200000 : Shape := ⟨1, ![1200000]⟩
abbrev S3x64x64 : Shape := ⟨3, ![3, 64, 64]⟩
abbrev S3x64 : Shape := ⟨2, ![3, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S5000x64 : Shape := ⟨2, ![5000, 64]⟩

abbrev nBuf : Space → Nat
  | .hbm => 124
  | .vmem => 54
  | .smem => 0
  | _ => 0

abbrev bufTy : (tb : Table) → Fin (tcTables nBuf tb) → BufTy
  | .hbm, ⟨0, _⟩ => ⟨S100000x64, .f32⟩
  | .hbm, ⟨1, _⟩ => ⟨S1200000, .i32⟩
  | .hbm, ⟨2, _⟩ => ⟨S1200000, .i32⟩
  | .hbm, ⟨3, _⟩ => ⟨S3x64x64, .f32⟩
  | .hbm, ⟨4, _⟩ => ⟨S3x64, .f32⟩
  | .hbm, ⟨5, _⟩ => ⟨S3x64, .f32⟩
  | .hbm, ⟨6, _⟩ => ⟨S3x64, .f32⟩
  | .hbm, ⟨7, _⟩ => ⟨S3x64, .f32⟩
  | .hbm, ⟨8, _⟩ => ⟨S3x64, .f32⟩
  | .hbm, ⟨9, _⟩ => ⟨S3x64x64, .f32⟩
  | .hbm, ⟨10, _⟩ => ⟨S3x64, .f32⟩
  | .hbm, ⟨11, _⟩ => ⟨S_, .f32⟩
  | .hbm, ⟨12, _⟩ => ⟨S100000x64, .f32⟩
  | .hbm, ⟨13, _⟩ => ⟨S_, .i32⟩
  | .hbm, ⟨14, _⟩ => ⟨S1200000, .i32⟩
  | .hbm, ⟨15, _⟩ => ⟨S1200000, .i1⟩
  | .hbm, ⟨16, _⟩ => ⟨S_, .i32⟩
  | .hbm, ⟨17, _⟩ => ⟨S1200000, .i32⟩
  | .hbm, ⟨18, _⟩ => ⟨S1200000, .i32⟩
  | .hbm, ⟨19, _⟩ => ⟨S1200000, .i32⟩
  | .hbm, ⟨20, _⟩ => ⟨S1200000x1, .i32⟩
  | .hbm, ⟨21, _⟩ => ⟨S1200000x64, .f32⟩
  | .hbm, ⟨22, _⟩ => ⟨S_, .f32⟩
  | .hbm, ⟨23, _⟩ => ⟨S100000x64, .f32⟩
  | .hbm, ⟨24, _⟩ => ⟨S1200000x1, .i32⟩
  | .hbm, ⟨25, _⟩ => ⟨S100000x64, .f32⟩
  | .hbm, ⟨26, _⟩ => ⟨S1x64x64, .f32⟩
  | .hbm, ⟨27, _⟩ => ⟨S64x64, .f32⟩
  | .hbm, ⟨28, _⟩ => ⟨S1x64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S1x64, .f32⟩
  | .hbm, ⟨33, _⟩ => ⟨S64, .f32⟩
  | .hbm, ⟨34, _⟩ => ⟨S1x64, .f32⟩
  | .hbm, ⟨35, _⟩ => ⟨S64, .f32⟩
  | .hbm, ⟨36, _⟩ => ⟨S1x64, .f32⟩
  | .hbm, ⟨37, _⟩ => ⟨S64, .f32⟩
  | .hbm, ⟨38, _⟩ => ⟨S1x64x64, .f32⟩
  | .hbm, ⟨39, _⟩ => ⟨S64x64, .f32⟩
  | .hbm, ⟨40, _⟩ => ⟨S1x64, .f32⟩
  | .hbm, ⟨41, _⟩ => ⟨S64, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1200000, .i32⟩
  | .hbm, ⟨52, _⟩ => ⟨S1200000, .i1⟩
  | .hbm, ⟨53, _⟩ => ⟨S_, .i32⟩
  | .hbm, ⟨54, _⟩ => ⟨S1200000, .i32⟩
  | .hbm, ⟨55, _⟩ => ⟨S1200000, .i32⟩
  | .hbm, ⟨56, _⟩ => ⟨S1200000, .i32⟩
  | .hbm, ⟨57, _⟩ => ⟨S1200000x1, .i32⟩
  | .hbm, ⟨58, _⟩ => ⟨S1200000x64, .f32⟩
  | .hbm, ⟨59, _⟩ => ⟨S_, .f32⟩
  | .hbm, ⟨60, _⟩ => ⟨S100000x64, .f32⟩
  | .hbm, ⟨61, _⟩ => ⟨S1200000x1, .i32⟩
  | .hbm, ⟨62, _⟩ => ⟨S100000x64, .f32⟩
  | .hbm, ⟨63, _⟩ => ⟨S1x64x64, .f32⟩
  | .hbm, ⟨64, _⟩ => ⟨S64x64, .f32⟩
  | .hbm, ⟨65, _⟩ => ⟨S1x64, .f32⟩
  | .hbm, ⟨66, _⟩ => ⟨S64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S64, .f32⟩
  | .hbm, ⟨71, _⟩ => ⟨S1x64, .f32⟩
  | .hbm, ⟨72, _⟩ => ⟨S64, .f32⟩
  | .hbm, ⟨73, _⟩ => ⟨S1x64, .f32⟩
  | .hbm, ⟨74, _⟩ => ⟨S64, .f32⟩
  | .hbm, ⟨75, _⟩ => ⟨S1x64x64, .f32⟩
  | .hbm, ⟨76, _⟩ => ⟨S64x64, .f32⟩
  | .hbm, ⟨77, _⟩ => ⟨S1x64, .f32⟩
  | .hbm, ⟨78, _⟩ => ⟨S64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .i32⟩
  | .hbm, ⟨88, _⟩ => ⟨S1200000, .i32⟩
  | .hbm, ⟨89, _⟩ => ⟨S1200000, .i1⟩
  | .hbm, ⟨90, _⟩ => ⟨S_, .i32⟩
  | .hbm, ⟨91, _⟩ => ⟨S1200000, .i32⟩
  | .hbm, ⟨92, _⟩ => ⟨S1200000, .i32⟩
  | .hbm, ⟨93, _⟩ => ⟨S1200000, .i32⟩
  | .hbm, ⟨94, _⟩ => ⟨S1200000x1, .i32⟩
  | .hbm, ⟨95, _⟩ => ⟨S1200000x64, .f32⟩
  | .hbm, ⟨96, _⟩ => ⟨S_, .f32⟩
  | .hbm, ⟨97, _⟩ => ⟨S100000x64, .f32⟩
  | .hbm, ⟨98, _⟩ => ⟨S1200000x1, .i32⟩
  | .hbm, ⟨99, _⟩ => ⟨S100000x64, .f32⟩
  | .hbm, ⟨100, _⟩ => ⟨S1x64x64, .f32⟩
  | .hbm, ⟨101, _⟩ => ⟨S64x64, .f32⟩
  | .hbm, ⟨102, _⟩ => ⟨S1x64, .f32⟩
  | .hbm, ⟨103, _⟩ => ⟨S64, .f32⟩
  | .hbm, ⟨104, _⟩ => ⟨S1x64, .f32⟩
  | .hbm, ⟨105, _⟩ => ⟨S64, .f32⟩
  | .hbm, ⟨106, _⟩ => ⟨S1x64, .f32⟩
  | .hbm, ⟨107, _⟩ => ⟨S64, .f32⟩
  | .hbm, ⟨108, _⟩ => ⟨S1x64, .f32⟩
  | .hbm, ⟨109, _⟩ => ⟨S64, .f32⟩
  | .hbm, ⟨110, _⟩ => ⟨S1x64, .f32⟩
  | .hbm, ⟨111, _⟩ => ⟨S64, .f32⟩
  | .hbm, ⟨112, _⟩ => ⟨S1x64x64, .f32⟩
  | .hbm, ⟨113, _⟩ => ⟨S64x64, .f32⟩
  | .hbm, ⟨114, _⟩ => ⟨S1x64, .f32⟩
  | .hbm, ⟨115, _⟩ => ⟨S64, .f32⟩
  | .hbm, ⟨116, _⟩ => ⟨S1x64, .f32⟩
  | .hbm, ⟨117, _⟩ => ⟨S1x64, .f32⟩
  | .hbm, ⟨118, _⟩ => ⟨S1x64, .f32⟩
  | .hbm, ⟨119, _⟩ => ⟨S1x64, .f32⟩
  | .hbm, ⟨120, _⟩ => ⟨S1x64, .f32⟩
  | .hbm, ⟨121, _⟩ => ⟨S1x64, .f32⟩
  | .hbm, ⟨122, _⟩ => ⟨S100000x64, .f32⟩
  | .hbm, ⟨123, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S64x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S64x64, .f32⟩
  | .local _ .vmem, ⟨49, _⟩ => ⟨S1x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33_0 : Ref sig .tc := ⟨.hbm, 48, rfl⟩
abbrev main_v33_1 : Ref sig .tc := ⟨.hbm, 49, rfl⟩
abbrev main_c_2 : Ref sig .tc := ⟨.hbm, 50, rfl⟩
abbrev main_v34 : Ref sig .tc := ⟨.hbm, 51, rfl⟩
abbrev main_v35 : Ref sig .tc := ⟨.hbm, 52, rfl⟩
abbrev main_c_3 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_4 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66_0 : Ref sig .tc := ⟨.hbm, 85, rfl⟩
abbrev main_v66_1 : Ref sig .tc := ⟨.hbm, 86, rfl⟩
abbrev main_c_5 : Ref sig .tc := ⟨.hbm, 87, rfl⟩
abbrev main_v67 : Ref sig .tc := ⟨.hbm, 88, rfl⟩
abbrev main_v68 : Ref sig .tc := ⟨.hbm, 89, rfl⟩
abbrev main_c_6 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_7 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99_0 : Ref sig .tc := ⟨.hbm, 122, rfl⟩
abbrev main_v99_1 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg4_0 : Ref sig .tc := ⟨.vmem, 43, rfl⟩
abbrev cc2_stg5_0 : Ref sig .tc := ⟨.vmem, 44, rfl⟩
abbrev cc2_stg6_0 : Ref sig .tc := ⟨.vmem, 45, rfl⟩
abbrev cc2_stg7_0 : Ref sig .tc := ⟨.vmem, 46, rfl⟩
abbrev cc2_stg8_0 : Ref sig .tc := ⟨.vmem, 47, rfl⟩
abbrev cc2_stg9_0 : Ref sig .tc := ⟨.vmem, 48, rfl⟩
abbrev cc2_stg10_0 : Ref sig .tc := ⟨.vmem, 49, rfl⟩
abbrev cc2_stg11_0 : Ref sig .tc := ⟨.vmem, 50, rfl⟩
abbrev cc2_stg11_1 : Ref sig .tc := ⟨.vmem, 51, rfl⟩
abbrev cc2_stg12_0 : Ref sig .tc := ⟨.vmem, 52, rfl⟩
abbrev cc2_stg12_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33
abbrev cc1_sem12_0 : DmaSem sig := 34
abbrev cc1_sem12_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem4_0 : DmaSem sig := 43
abbrev cc2_sem5_0 : DmaSem sig := 44
abbrev cc2_sem6_0 : DmaSem sig := 45
abbrev cc2_sem7_0 : DmaSem sig := 46
abbrev cc2_sem8_0 : DmaSem sig := 47
abbrev cc2_sem9_0 : DmaSem sig := 48
abbrev cc2_sem10_0 : DmaSem sig := 49
abbrev cc2_sem11_0 : DmaSem sig := 50
abbrev cc2_sem11_1 : DmaSem sig := 51
abbrev cc2_sem12_0 : DmaSem sig := 52
abbrev cc2_sem12_1 : DmaSem sig := 53

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S5000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S5000x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_12 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S5000x64 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

class Facts₀ : Prop where
  bcast_S_S100000x64 : S_.BroadcastsInDim S100000x64 (![] : Fin 0 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S5000x64.size a ≤ S100000x64.size a
  hwx0_11 : ∀ i : grid0.Coords, EltTy.bits .f32 = 32 ∨ (Rect.block (s := S100000x64) S5000x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S5000x64.size a ≤ S100000x64.size a
  hwx0_12 : ∀ i : grid0.Coords, EltTy.bits .f32 = 32 ∨ (Rect.block (s := S100000x64) S5000x64.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x64.size a ≤ S100000x64.size a
  hwx1_11 : ∀ i : grid1.Coords, EltTy.bits .f32 = 32 ∨ (Rect.block (s := S100000x64) S5000x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x64.size a ≤ S100000x64.size a
  hwx2_11 : ∀ i : grid2.Coords, EltTy.bits .f32 = 32 ∨ (Rect.block (s := S100000x64) S5000x64.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S5000x64.size a ≤ S100000x64.size a
  hwx2_12 : ∀ i : grid2.Coords, EltTy.bits .f32 = 32 ∨ (Rect.block (s := S100000x64) S5000x64.size (cc2_transform_12 i) (hinb2_12 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v24) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v28) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v33_0) S5000x64.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v33_1) S5000x64.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v33_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v45) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v60) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v65) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v57) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v61) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v66_0) S5000x64.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v66_1) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v66_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66_1) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v78) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v93) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v95) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v96) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v97) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v98) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v90) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v94) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v99_0) S5000x64.size cc2_transform_11 reads2_11 true false 2 stage2_11 sem2_11
    hrank2 hreads2_11 hinb2_11 nbuf2_11 (Memref.isWhole_whole _) hwx2_11 hstage2_11

abbrev win2_12 : Pipeline.Window sig grid2 :=
  Pipeline.Window.ofSpec (Memref.whole main_v99_1) S5000x64.size cc2_transform_12 reads2_12 true false 2 stage2_12 sem2_12
    hrank2 hreads2_12 hinb2_12 nbuf2_12 (Memref.isWhole_whole _) hwx2_12 hstage2_12

abbrev win2 : Fin 13 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | ⟨_ + 13, h⟩ => absurd h (Nat.not_lt.2 (Nat.le_add_left _ _))
abbrev spec2 : Fin 13 → Pipeline.WinSpec sig grid2.rank := fun w => (win2 w).toWinSpec

class Facts : Prop extends Facts₀ where

variable [Facts]
-- ==== ReferenceIdeal.lean ====
abbrev S100000x64 : Shape := ⟨2, ![100000, 64]⟩
abbrev S1200000 : Shape := ⟨1, ![1200000]⟩
abbrev S3x64x64 : Shape := ⟨3, ![3, 64, 64]⟩
abbrev S3x64 : Shape := ⟨2, ![3, 64]⟩
abbrev S_ : Shape := ⟨0, ![]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 193
  | .vmem => 0
  | .smem => 0
  | _ => 0

abbrev hbmTy0_0 (i : Nat) : BufTy := match i % 128 with
  | 0 => ⟨S100000x64, .f32⟩
  | 1 => ⟨S1200000, .i32⟩
  | 2 => ⟨S1200000, .i32⟩
  | 3 => ⟨S3x64x64, .f32⟩
  | 4 => ⟨S3x64, .f32⟩
  | 5 => ⟨S3x64, .f32⟩
  | 6 => ⟨S3x64, .f32⟩
  | 7 => ⟨S3x64, .f32⟩
  | 8 => ⟨S3x64, .f32⟩
  | 9 => ⟨S3x64x64, .f32⟩
  | 10 => ⟨S3x64, .f32⟩
  | 11 => ⟨S_, .f32⟩
  | 12 => ⟨S100000x64, .f32⟩
  | 13 => ⟨S_, .i32⟩
  | 14 => ⟨S1200000, .i32⟩
  | 15 => ⟨S1200000, .i1⟩
  | 16 => ⟨S_, .i32⟩
  | 17 => ⟨S1200000, .i32⟩
  | 18 => ⟨S1200000, .i32⟩
  | 19 => ⟨S1200000, .i32⟩
  | 20 => ⟨S1200000x1, .i32⟩
  | 21 => ⟨S1200000x64, .f32⟩
  | 22 => ⟨S_, .f32⟩
  | 23 => ⟨S100000x64, .f32⟩
  | 24 => ⟨S1200000x1, .i32⟩
  | 25 => ⟨S100000x64, .f32⟩
  | 26 => ⟨S100000x64, .f32⟩
  | 27 => ⟨S1x64x64, .f32⟩
  | 28 => ⟨S64x64, .f32⟩
  | 29 => ⟨S100000x64, .f32⟩
  | 30 => ⟨S1x64, .f32⟩
  | 31 => ⟨S64, .f32⟩
  | 32 => ⟨S1x64, .f32⟩
  | 33 => ⟨S100000x64, .f32⟩
  | 34 => ⟨S100000x64, .f32⟩
  | 35 => ⟨S1x64, .f32⟩
  | 36 => ⟨S64, .f32⟩
  | 37 => ⟨S1x64, .f32⟩
  | 38 => ⟨S64, .f32⟩
  | 39 => ⟨S1x64, .f32⟩
  | 40 => ⟨S100000x64, .f32⟩
  | 41 => ⟨S100000x64, .f32⟩
  | 42 => ⟨S1x64, .f32⟩
  | 43 => ⟨S100000x64, .f32⟩
  | 44 => ⟨S100000x64, .f32⟩
  | 45 => ⟨S1x64, .f32⟩
  | 46 => ⟨S64, .f32⟩
  | 47 => ⟨S_, .f32⟩
  | 48 => ⟨S64, .f32⟩
  | 49 => ⟨S64, .f32⟩
  | 50 => ⟨S64, .f32⟩
  | 51 => ⟨S1x64, .f32⟩
  | 52 => ⟨S100000x64, .f32⟩
  | 53 => ⟨S100000x64, .f32⟩
  | 54 => ⟨S1x64, .f32⟩
  | 55 => ⟨S64, .f32⟩
  | 56 => ⟨S1x64, .f32⟩
  | 57 => ⟨S100000x64, .f32⟩
  | 58 => ⟨S100000x64, .f32⟩
  | 59 => ⟨S_, .f32⟩
  | 60 => ⟨S100000x64, .f32⟩
  | 61 => ⟨S100000x64, .f32⟩
  | 62 => ⟨S1x64x64, .f32⟩
  | 63 => ⟨S64x64, .f32⟩
  | 64 => ⟨S100000x64, .f32⟩
  | 65 => ⟨S1x64, .f32⟩
  | 66 => ⟨S64, .f32⟩
  | 67 => ⟨S1x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S100000x64, .f32⟩
  | 74 => ⟨S_, .i32⟩
  | 75 => ⟨S1200000, .i32⟩
  | 76 => ⟨S1200000, .i1⟩
  | 77 => ⟨S_, .i32⟩
  | 78 => ⟨S1200000, .i32⟩
  | 79 => ⟨S1200000, .i32⟩
  | 80 => ⟨S1200000, .i32⟩
  | 81 => ⟨S1200000x1, .i32⟩
  | 82 => ⟨S1200000x64, .f32⟩
  | 83 => ⟨S_, .f32⟩
  | 84 => ⟨S100000x64, .f32⟩
  | 85 => ⟨S1200000x1, .i32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S1x64, .f32⟩
  | 92 => ⟨S64, .f32⟩
  | 93 => ⟨S1x64, .f32⟩
  | 94 => ⟨S100000x64, .f32⟩
  | 95 => ⟨S100000x64, .f32⟩
  | 96 => ⟨S1x64, .f32⟩
  | 97 => ⟨S64, .f32⟩
  | 98 => ⟨S1x64, .f32⟩
  | 99 => ⟨S64, .f32⟩
  | 100 => ⟨S1x64, .f32⟩
  | 101 => ⟨S100000x64, .f32⟩
  | 102 => ⟨S100000x64, .f32⟩
  | 103 => ⟨S1x64, .f32⟩
  | 104 => ⟨S100000x64, .f32⟩
  | 105 => ⟨S100000x64, .f32⟩
  | 106 => ⟨S1x64, .f32⟩
  | 107 => ⟨S64, .f32⟩
  | 108 => ⟨S_, .f32⟩
  | 109 => ⟨S64, .f32⟩
  | 110 => ⟨S64, .f32⟩
  | 111 => ⟨S64, .f32⟩
  | 112 => ⟨S1x64, .f32⟩
  | 113 => ⟨S100000x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .f32⟩
  | 123 => ⟨S1x64x64, .f32⟩
  | 124 => ⟨S64x64, .f32⟩
  | 125 => ⟨S100000x64, .f32⟩
  | 126 => ⟨S1x64, .f32⟩
  | 127 => ⟨S64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S_, .i32⟩
  | 8 => ⟨S1200000, .i32⟩
  | 9 => ⟨S1200000, .i1⟩
  | 10 => ⟨S_, .i32⟩
  | 11 => ⟨S1200000, .i32⟩
  | 12 => ⟨S1200000, .i32⟩
  | 13 => ⟨S1200000, .i32⟩
  | 14 => ⟨S1200000x1, .i32⟩
  | 15 => ⟨S1200000x64, .f32⟩
  | 16 => ⟨S_, .f32⟩
  | 17 => ⟨S100000x64, .f32⟩
  | 18 => ⟨S1200000x1, .i32⟩
  | 19 => ⟨S100000x64, .f32⟩
  | 20 => ⟨S100000x64, .f32⟩
  | 21 => ⟨S1x64x64, .f32⟩
  | 22 => ⟨S64x64, .f32⟩
  | 23 => ⟨S100000x64, .f32⟩
  | 24 => ⟨S1x64, .f32⟩
  | 25 => ⟨S64, .f32⟩
  | 26 => ⟨S1x64, .f32⟩
  | 27 => ⟨S100000x64, .f32⟩
  | 28 => ⟨S100000x64, .f32⟩
  | 29 => ⟨S1x64, .f32⟩
  | 30 => ⟨S64, .f32⟩
  | 31 => ⟨S1x64, .f32⟩
  | 32 => ⟨S64, .f32⟩
  | 33 => ⟨S1x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S1x64, .f32⟩
  | 40 => ⟨S64, .f32⟩
  | 41 => ⟨S_, .f32⟩
  | 42 => ⟨S64, .f32⟩
  | 43 => ⟨S64, .f32⟩
  | 44 => ⟨S64, .f32⟩
  | 45 => ⟨S1x64, .f32⟩
  | 46 => ⟨S100000x64, .f32⟩
  | 47 => ⟨S100000x64, .f32⟩
  | 48 => ⟨S1x64, .f32⟩
  | 49 => ⟨S64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S1x64x64, .f32⟩
  | 57 => ⟨S64x64, .f32⟩
  | 58 => ⟨S100000x64, .f32⟩
  | 59 => ⟨S1x64, .f32⟩
  | 60 => ⟨S64, .f32⟩
  | 61 => ⟨S1x64, .f32⟩
  | 62 => ⟨S100000x64, .f32⟩
  | 63 => ⟨S100000x64, .f32⟩
  | 64 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call1_cst : Ref sig .tc := ⟨.hbm, 70, rfl⟩
abbrev main_call1_v0 : Ref sig .tc := ⟨.hbm, 71, rfl⟩
abbrev main_v52 : Ref sig .tc := ⟨.hbm, 72, rfl⟩
abbrev main_v53 : Ref sig .tc := ⟨.hbm, 73, rfl⟩
abbrev main_c_3 : Ref sig .tc := ⟨.hbm, 74, rfl⟩
abbrev main_v54 : Ref sig .tc := ⟨.hbm, 75, rfl⟩
abbrev main_v55 : Ref sig .tc := ⟨.hbm, 76, rfl⟩
abbrev main_c_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_6 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_call2_cst : Ref sig .tc := ⟨.hbm, 120, rfl⟩
abbrev main_call2_v0 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_call3_cst : Ref sig .tc := ⟨.hbm, 131, rfl⟩
abbrev main_call3_v0 : Ref sig .tc := ⟨.hbm, 132, rfl⟩
abbrev main_v105 : Ref sig .tc := ⟨.hbm, 133, rfl⟩
abbrev main_v106 : Ref sig .tc := ⟨.hbm, 134, rfl⟩
abbrev main_c_7 : Ref sig .tc := ⟨.hbm, 135, rfl⟩
abbrev main_v107 : Ref sig .tc := ⟨.hbm, 136, rfl⟩
abbrev main_v108 : Ref sig .tc := ⟨.hbm, 137, rfl⟩
abbrev main_c_8 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_cst_9 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_10 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_call4_cst : Ref sig .tc := ⟨.hbm, 181, rfl⟩
abbrev main_call4_v0 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run, with its result named.  The program is three kernel regions among stretches of host
  operations; the contents of every buffer at each boundary are a fold from the launch memory (a stretch applies its
  operations, a region replaces its arrays by what its write-backs leave).  Every weakly fair execution ends with every
  unscoped buffer at the last boundary's contents: in particular the result buffer holds the last boundary's value of it,
  and each argument its launch contents.
-/
import proofs.«109376_j64518998720917_1_alg».proof.Proof.Gen.KernelIdeal.Frame

set_option maxRecDepth 16384

noncomputable section

namespace Cert.Gin.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result buffer at the last boundary's contents and
    the arguments as launched. -/
theorem run_result : θ_run defs (onTc (τ := τ) (main (F := F))) ⟨m, fun _ => 0, ρ⟩ (fun r => ∀ c : Dev nD,
      r.2.mem ((c.tc : Thread nD τ).loc main_v99_1) = W6 m ρ c (Proc.devRef .tc main_v99_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v99_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.Gin.KRun

end
-- ==== Proof.Spec.lean ====
/-
  The mathematics of the claim, with no program in sight.

  A node-feature array is a function on the indices of a 100000 × 64 array; the parameters of the three layers are stacked
  in arrays with a leading axis of extent 3.  One layer sends the feature array `h` and its neighbour aggregate `a`
  (the sum over incoming edges, kept abstract here: both programs compute it by the same two operations) to

      row r, column q  ↦  act ( Σ_k z_r(k) · W2(k,q) + b2(q) ),
      z_r(k) = max ( γ(k) · ( Σ_k' (h(r,k') + a(r,k')) · W1(k',k) + b1(k) − μ(k) ) · rsqrt( v(k) + ε ) + β(k) , 0 ),

  where `act` is `max · 0` for the first two layers and the identity for the last.  The result is the running sum
  `((0 + h₁) + h₂) + h₃` of the three layers' outputs.  Every entry of a layer's output depends on ONE row of `h` and
  `a`, which is why a program that computes the layer 5000 rows at a time computes the same array.
-/
import Idealize.ShloMosaic.PureOps.Ideal
import Idealize.ShloMosaic.PureOps.Ideal.Laws
import Idealize.ShloMosaic.Lib.ValueIdx

noncomputable section

namespace Cert.Gin

open Idealize.ShloMosaic Idealize.ShloMosaic.ValueIdx

/-- A node-feature array: 100000 nodes, 64 features. -/
abbrev Feat := (⟨2, ![100000, 64]⟩ : Shape).Idx → EReal
/-- One layer's 64 × 64 weight matrix, and a row vector kept as a 1 × 64 array. -/
abbrev Sq := (⟨2, ![64, 64]⟩ : Shape).Idx → EReal
abbrev Row := (⟨2, ![1, 64]⟩ : Shape).Idx → EReal
/-- The three layers' matrices and vectors, stacked along a leading axis. -/
abbrev Sq3 := (⟨3, ![3, 64, 64]⟩ : Shape).Idx → EReal
abbrev Row3 := (⟨2, ![3, 64]⟩ : Shape).Idx → EReal

/-- The batch-norm epsilon and the zero of the rectifier, as the float words both programs spell: the same word on both
    sides, so neither is ever evaluated. -/
def eps : EReal := Ideal.ofBits .f32 0x3727C5AC#32
def zero : EReal := Ideal.ofBits .f32 0x00000000#32

/-- The rectifier where a layer has one, the identity where it has none. -/
def act : Bool → EReal → EReal
  | true, x => max x zero
  | false, x => x

/-- Hidden unit `k` of a node whose summed input row is `pre`: first linear map, batch normalisation with the running
    statistics, rectifier. -/
def hidden (W1 : Fin 64 → Fin 64 → EReal) (b1 γ β μ v : Fin 64 → EReal) (pre : Fin 64 → EReal) (k : Fin 64) : EReal :=
  max (γ k * ((∑ k' : Fin 64, pre k' * W1 k' k) + b1 k - μ k) * Ideal.rsqrt (v k + eps) + β k) zero

/-- Output unit `q` of the second linear map on the hidden row `z`. -/
def outLin (W2 : Fin 64 → Fin 64 → EReal) (b2 : Fin 64 → EReal) (z : Fin 64 → EReal) (q : Fin 64) : EReal :=
  (∑ k : Fin 64, z k * W2 k q) + b2 q

/-- One layer on whole arrays, its parameters given as a 64 × 64 matrix and 1 × 64 rows: entry `(r, q)` reads row `r` of
    `h` and of the aggregate `a` and nothing else. -/
def mlp (relu : Bool) (W1 : Sq) (b1 γ β μ v : Row) (W2 : Sq) (b2 : Row) (h a : Feat) : Feat := fun i =>
  act relu (outLin (fun k q => W2 (ix2 k q)) (fun q => b2 (ix2 0 q))
    (hidden (fun k' k => W1 (ix2 k' k)) (fun k => b1 (ix2 0 k)) (fun k => γ (ix2 0 k)) (fun k => β (ix2 0 k))
      (fun k => μ (ix2 0 k)) (fun k => v (ix2 0 k)) (fun k' => h (ix2 (i 0) k') + a (ix2 (i 0) k'))) (i 1))

/-- Slice `l` of a stack of matrices, and of a stack of vectors as a 1 × 64 row. -/
def sq (l : Fin 3) (W : Sq3) : Sq := fun j => W (ix3 l (j 0) (j 1))
def row (l : Fin 3) (b : Row3) : Row := fun j => b (ix2 l (j 1))

/-- Layer `l` with its parameters taken from the stacks. -/
def layer (relu : Bool) (l : Fin 3) (W1 : Sq3) (b1 γ β μ v : Row3) (W2 : Sq3) (b2 : Row3) (h a : Feat) : Feat :=
  mlp relu (sq l W1) (row l b1) (row l γ) (row l β) (row l μ) (row l v) (sq l W2) (row l b2) h a

/-- The array of zeros the running sum starts from. -/
def zeros : Feat := fun _ => zero

/-- The whole network: three layers, each fed the previous layer's output and its neighbour aggregate `agg ·`, summed. -/
def result (agg : Feat → Feat) (x : Feat) (W1 : Sq3) (b1 γ β μ v : Row3) (W2 : Sq3) (b2 : Row3) : Feat :=
  let h1 := layer true 0 W1 b1 γ β μ v W2 b2 x (agg x)
  let h2 := layer true 1 W1 b1 γ β μ v W2 b2 h1 (agg h1)
  let h3 := layer false 2 W1 b1 γ β μ v W2 b2 h2 (agg h2)
  fun i => ((zeros i + h1 i) + h2 i) + h3 i

end Cert.Gin

end
-- ==== Proof.KMatmul.lean ====
/-
  The kernel's matrix product, read at an entry.  Into a zero accumulator, and over the extended reals, the product of a
  5000 × 64 block with a 64 × 64 matrix has at row `p`, column `q` the sum over `k` of `a(p,k) · b(k,q)`: one row of
  the left operand against one column of the right.
-/
import proofs.«109376_j64518998720917_1_alg».proof.Proof.Gen.KernelIdeal
import Idealize.ShloMosaic.Lib.ValueIdx
import Idealize.ShloMosaic.PureOps.Ideal.Laws

noncomputable section

namespace Cert.Gin.K

open Cert.KernelIdeal Idealize.ShloMosaic Idealize.ShloMosaic.ValueIdx

theorem lhs0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem lhs1 (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c

theorem rhs0 (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c

theorem rhs1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- Entry `(p, q)` of the product is row `p` of the block against column `q` of the matrix. -/
theorem matmul_rows {φ₁ φ₂ : FTy} (a : FVec Ideal S5000x64 φ₁) (b : FVec Ideal S64x64 φ₂) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k :=
    funext fun ax => Fin.ext (by
      match ax with
      | ⟨0, _⟩ => exact lhs0 _ _
      | ⟨1, _⟩ => exact (lhs1 _ _).trans hk)
  have er : dot_S5000x64_S64x64_S5000x64_1_0_0_1_n_n.rhsIdx (ix2 p q)
      ((contrEquiv1 dot_S5000x64_S64x64_S5000x64_1_0_0_1_n_n 64 rfl rfl).symm k) = ix2 k q :=
    funext fun ax => Fin.ext (by
      match ax with
      | ⟨0, _⟩ => exact (rhs0 _ _).trans hk
      | ⟨1, _⟩ => exact rhs1 _ _)
  rw [el, er]

end Cert.Gin.K

end
-- ==== Proof.KPay0.lean ====
/-
  Region 0 of the kernel: what its body stores, read at an entry.  The body adds its block of `h` to its block of the
  aggregate, multiplies by the first matrix, normalises, rectifies, multiplies by the second matrix and adds the bias, rectifies again;
  the second output adds that to its block of the running sum.  Entry `(p, q)` of what is stored reads row `p` of the two
  row blocks and nothing else of them.  A change of float format is the identity on the extended reals.
-/
import proofs.«109376_j64518998720917_1_alg».proof.Proof.Gen.KernelIdeal.Frame
import proofs.«109376_j64518998720917_1_alg».proof.Proof.Spec
import proofs.«109376_j64518998720917_1_alg».proof.Proof.KMatmul
import Idealize.ShloMosaic.Lib.Pipeline.Value
import Idealize.ShloMosaic.Lib.ValueLayout

noncomputable section

namespace Cert.Gin.K0

open Cert.KernelIdeal Cert.KernelIdeal.Gen Idealize.ShloMosaic Idealize.ShloMosaic.TcCoe Idealize.SL.Sem Idealize.ShloMosaic.ValueIdx Cert.Gin.K

theorem hz : (![0, 0] : Fin 2 → Nat) = fun _ => 0 := funext fun a => by fin_cases a <;> rfl

/-- The hidden row: entry `(p, k)` of the rectified, normalised first linear map of the summed blocks. -/
theorem pay3 (h a : Vec Ideal S5000x64 .f32) (W1 : Vec Ideal S64x64 .f32) (b1 v γ μ β : Vec Ideal S1x64 .f32) (p : Fin 5000) (k : Fin 64) :
    k0_pay3 (F := Ideal) h a W1 b1 v γ μ β (ix2 p k)
      = Gin.hidden (fun k' k => W1 (ix2 k' k)) (fun k => b1 (ix2 0 k)) (fun k => γ (ix2 0 k)) (fun k => β (ix2 0 k))
          (fun k => μ (ix2 0 k)) (fun k => v (ix2 0 k)) (fun k' => h (ix2 p k') + a (ix2 p k')) k := by
  unfold k0_pay3 Gin.hidden Gin.eps Gin.zero
  simp only [shapeCast_self, truncf_apply, maximumf_apply, addf_apply, subf_apply, mulf_apply, broadcast_apply,
    broadcastTo_1b_ab_apply, matmul_rows, rsqrt, Ideal.rsqrt_def]
  rfl

theorem pay4 (w : Vec Ideal S64x64 .f32) (i : S64x64.Idx) : k0_pay4 (F := Ideal) w i = w i := by
  unfold k0_pay4
  simp only [shapeCast_self]
  rfl

/-- The first output: the second linear map of the hidden row, rectified. -/
theorem pay1 (z : FVec Ideal S5000x64 .bf16) (W2 : FVec Ideal S64x64 .bf16) (b2 : Vec Ideal S1x64 .f32) (p : Fin 5000) (q : Fin 64) :
    k0_pay1 (F := Ideal) z W2 b2 (ix2 p q)
      = Gin.act true (Gin.outLin (fun k q => W2 (ix2 k q)) (fun q => b2 (ix2 0 q)) (fun k => z (ix2 p k)) q) := by
  unfold k0_pay1 Gin.act Gin.outLin Gin.zero
  simp only [shapeCast_self, truncf_apply, maximumf_apply, addf_apply, broadcast_apply, broadcastTo_1b_ab_apply, matmul_rows]
  rfl

/-- Entry `(p, q)` of the first output block, from the input blocks. -/
theorem out11_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out0_11 (F := Ideal) x0 x1 x2 x3 x4 x5 x6 x7 x8 x9 x10 (ix2 p q)
      = Gin.act true (Gin.outLin (fun k q => x9 (ix2 k q)) (fun q => x10 (ix2 0 q))
          (Gin.hidden (fun k' k => x3 (ix2 k' k)) (fun k => x4 (ix2 0 k)) (fun k => x5 (ix2 0 k)) (fun k => x6 (ix2 0 k))
            (fun k => x7 (ix2 0 k)) (fun k => x8 (ix2 0 k)) (fun k' => x0 (ix2 p k') + x1 (ix2 p k'))) q) := by
  unfold out0_11
  rw [View.canon_unit_zero hz]
  simp only [View.ld_unit_zero (S := S5000x64) hz, View.ld_unit_zero (S := S64x64) hz, View.ld_unit_zero (S := S1x64) hz]
  rw [pay1]
  simp only [pay3, pay4]

/-- Entry `(p, q)` of the second output block: the running sum's block plus the first output. -/
theorem out12_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out0_12 (F := Ideal) x0 x1 x2 x3 x4 x5 x6 x7 x8 x9 x10 (ix2 p q)
      = x2 (ix2 p q) + out0_11 (F := Ideal) x0 x1 x2 x3 x4 x5 x6 x7 x8 x9 x10 (ix2 p q) := by
  unfold out0_12 out0_11
  rw [View.canon_unit_zero hz, View.canon_unit_zero hz]
  simp only [View.ld_unit_zero (S := S5000x64) hz, View.ld_unit_zero (S := S64x64) hz, View.ld_unit_zero (S := S1x64) hz]
  unfold k0_pay2
  simp only [shapeCast_self, addf_apply]

end Cert.Gin.K0

end
-- ==== Proof.KBlocks0.lean ====
/-
  Region 0 of the kernel, from blocks to whole arrays.  The grid has 20 points; point `t` reads rows
  `5000·t … 5000·t + 4999` of the three row-blocked inputs (the features, their aggregate, the running sum), the whole of
  each parameter array, and writes the same rows of the two outputs.  Since entry `(r, q)` of a layer depends on row `r`
  of its inputs only, what point `t` writes is rows `5000·t …` of ONE whole-array function of the arrays as the region
  finds them; the 20 row blocks tile the array, so after the region each output array IS that function.
-/
import proofs.«109376_j64518998720917_1_alg».proof.Proof.KPay0
import proofs.«109376_j64518998720917_1_alg».proof.Proof.Gen.KernelIdeal.Frame
import Idealize.ShloMosaic.Lib.Pipeline.Value

set_option maxRecDepth 16384

noncomputable section

namespace Cert.Gin.K0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Where each window's block sits at point `t`: the row-blocked windows at block row `t`, every other window at its one
    block; decided over the 20 points. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0
    ∧ win0_12.index t (0 : Fin 2) = t.val
    ∧ win0_12.index t (1 : Fin 2) = 0 :=
  (by decide +kernel : ∀ t : Fin grid0.N, _)

/-- The array row that row `p` of point `t`'s block is. -/
def rowOf (t : Fin cfg0.N) (p : Fin 5000) : Fin 100000 :=
  ⟨t.val * 5000 + p.val, by have h : t.val < grid0.N := t.isLt; rw [N_0] at h; have := p.isLt; omega⟩

theorem blk0 (c : Dev nD) (t : Fin cfg0.N) (p : Fin 5000) (q : Fin 64) :
    iblk0 V c 0 t (ix2 p q) = V c main_arg0 (ix2 (rowOf t p) q) := by
  show V c main_arg0 (((cfg0.win 0).blk t).view.emb (ix2 p q)) = _
  refine congrArg _ (funext fun a => Fin.ext ?_)
  have hf := idx_facts t
  match a with
  | ⟨0, _⟩ => show win0_0.index t (0 : Fin 2) * 5000 + 1 * p.val = t.val * 5000 + p.val; rw [hf.1]; omega
  | ⟨1, _⟩ => show win0_0.index t (1 : Fin 2) * 64 + 1 * q.val = q.val; rw [hf.2.1]; omega

theorem blk1 (c : Dev nD) (t : Fin cfg0.N) (p : Fin 5000) (q : Fin 64) :
    iblk0 V c 1 t (ix2 p q) = V c main_v10 (ix2 (rowOf t p) q) := by
  show V c main_v10 (((cfg0.win 1).blk t).view.emb (ix2 p q)) = _
  refine congrArg _ (funext fun a => Fin.ext ?_)
  have hf := idx_facts t
  match a with
  | ⟨0, _⟩ => show win0_1.index t (0 : Fin 2) * 5000 + 1 * p.val = t.val * 5000 + p.val; rw [hf.2.2.1]; omega
  | ⟨1, _⟩ => show win0_1.index t (1 : Fin 2) * 64 + 1 * q.val = q.val; rw [hf.2.2.2.1]; omega

theorem blk2 (c : Dev nD) (t : Fin cfg0.N) (p : Fin 5000) (q : Fin 64) :
    iblk0 V c 2 t (ix2 p q) = V c main_v0 (ix2 (rowOf t p) q) := by
  show V c main_v0 (((cfg0.win 2).blk t).view.emb (ix2 p q)) = _
  refine congrArg _ (funext fun a => Fin.ext ?_)
  have hf := idx_facts t
  match a with
  | ⟨0, _⟩ => show win0_2.index t (0 : Fin 2) * 5000 + 1 * p.val = t.val * 5000 + p.val; rw [hf.2.2.2.2.1]; omega
  | ⟨1, _⟩ => show win0_2.index t (1 : Fin 2) * 64 + 1 * q.val = q.val; rw [hf.2.2.2.2.2.1]; omega

theorem blk3 (c : Dev nD) (t : Fin cfg0.N) (p : Fin 64) (q : Fin 64) :
    iblk0 V c 3 t (ix2 p q) = V c main_v12 (ix2 p q) := by
  show V c main_v12 (((cfg0.win 3).blk t).view.emb (ix2 p q)) = _
  refine congrArg _ (funext fun a => Fin.ext ?_)
  have hf := idx_facts t
  match a with
  | ⟨0, _⟩ => show win0_3.index t (0 : Fin 2) * 64 + 1 * p.val = p.val; rw [hf.2.2.2.2.2.2.1]; omega
  | ⟨1, _⟩ => show win0_3.index t (1 : Fin 2) * 64 + 1 * q.val = q.val; rw [hf.2.2.2.2.2.2.2.1]; omega

theorem blk4 (c : Dev nD) (t : Fin cfg0.N) (q : Fin 64) :
    iblk0 V c 4 t (ix2 (0 : Fin 1) q) = V c main_v27 (ix2 (0 : Fin 1) q) := by
  show V c main_v27 (((cfg0.win 4).blk t).view.emb (ix2 (0 : Fin 1) q)) = _
  refine congrArg _ (funext fun a => Fin.ext ?_)
  have hf := idx_facts t
  match a with
  | ⟨0, _⟩ => show win0_4.index t (0 : Fin 2) * 1 + 1 * 0 = 0; rw [hf.2.2.2.2.2.2.2.2.1]
  | ⟨1, _⟩ => show win0_4.index t (1 : Fin 2) * 64 + 1 * q.val = q.val; rw [hf.2.2.2.2.2.2.2.2.2.1]; omega

theorem blk5 (c : Dev nD) (t : Fin cfg0.N) (q : Fin 64) :
    iblk0 V c 5 t (ix2 (0 : Fin 1) q) = V c main_v29 (ix2 (0 : Fin 1) q) := by
  show V c main_v29 (((cfg0.win 5).blk t).view.emb (ix2 (0 : Fin 1) q)) = _
  refine congrArg _ (funext fun a => Fin.ext ?_)
  have hf := idx_facts t
  match a with
  | ⟨0, _⟩ => show win0_5.index t (0 : Fin 2) * 1 + 1 * 0 = 0; rw [hf.2.2.2.2.2.2.2.2.2.2.1]
  | ⟨1, _⟩ => show win0_5.index t (1 : Fin 2) * 64 + 1 * q.val = q.val; rw [hf.2.2.2.2.2.2.2.2.2.2.2.1]; omega

theorem blk6 (c : Dev nD) (t : Fin cfg0.N) (q : Fin 64) :
    iblk0 V c 6 t (ix2 (0 : Fin 1) q) = V c main_v30 (ix2 (0 : Fin 1) q) := by
  show V c main_v30 (((cfg0.win 6).blk t).view.emb (ix2 (0 : Fin 1) q)) = _
  refine congrArg _ (funext fun a => Fin.ext ?_)
  have hf := idx_facts t
  match a with
  | ⟨0, _⟩ => show win0_6.index t (0 : Fin 2) * 1 + 1 * 0 = 0; rw [hf.2.2.2.2.2.2.2.2.2.2.2.2.1]
  | ⟨1, _⟩ => show win0_6.index t (1 : Fin 2) * 64 + 1 * q.val = q.val; rw [hf.2.2.2.2.2.2.2.2.2.2.2.2.2.1]; omega

theorem blk7 (c : Dev nD) (t : Fin cfg0.N) (q : Fin 64) :
    iblk0 V c 7 t (ix2 (0 : Fin 1) q) = V c main_v31 (ix2 (0 : Fin 1) q) := by
  show V c main_v31 (((cfg0.win 7).blk t).view.emb (ix2 (0 : Fin 1) q)) = _
  refine congrArg _ (funext fun a => Fin.ext ?_)
  have hf := idx_facts t
  match a with
  | ⟨0, _⟩ => show win0_7.index t (0 : Fin 2) * 1 + 1 * 0 = 0; rw [hf.2.2.2.2.2.2.2.2.2.2.2.2.2.2.1]
  | ⟨1, _⟩ => show win0_7.index t (1 : Fin 2) * 64 + 1 * q.val = q.val; rw [hf.2.2.2.2.2.2.2.2.2.2.2.2.2.2.2.1]; omega

theorem blk8 (c : Dev nD) (t : Fin cfg0.N) (q : Fin 64) :
    iblk0 V c 8 t (ix2 (0 : Fin 1) q) = V c main_v32 (ix2 (0 : Fin 1) q) := by
  show V c main_v32 (((cfg0.win 8).blk t).view.emb (ix2 (0 : Fin 1) q)) = _
  refine congrArg _ (funext fun a => Fin.ext ?_)
  have hf := idx_facts t
  match a with
  | ⟨0, _⟩ => show win0_8.index t (0 : Fin 2) * 1 + 1 * 0 = 0; rw [hf.2.2.2.2.2.2.2.2.2.2.2.2.2.2.2.2.1]
  | ⟨1, _⟩ => show win0_8.index t (1 : Fin 2) * 64 + 1 * q.val = q.val; rw [hf.2.2.2.2.2.2.2.2.2.2.2.2.2.2.2.2.2.1]; omega

theorem blk9 (c : Dev nD) (t : Fin cfg0.N) (p : Fin 64) (q : Fin 64) :
    iblk0 V c 9 t (ix2 p q) = V c main_v24 (ix2 p q) := by
  show V c main_v24 (((cfg0.win 9).blk t).view.emb (ix2 p q)) = _
  refine congrArg _ (funext fun a => Fin.ext ?_)
  have hf := idx_facts t
  match a with
  | ⟨0, _⟩ => show win0_9.index t (0 : Fin 2) * 64 + 1 * p.val = p.val; rw [hf.2.2.2.2.2.2.2.2.2.2.2.2.2.2.2.2.2.2.1]; omega
  | ⟨1, _⟩ => show win0_9.index t (1 : Fin 2) * 64 + 1 * q.val = q.val; rw [hf.2.2.2.2.2.2.2.2.2.2.2.2.2.2.2.2.2.2.2.1]; omega

theorem blk10 (c : Dev nD) (t : Fin cfg0.N) (q : Fin 64) :
    iblk0 V c 10 t (ix2 (0 : Fin 1) q) = V c main_v28 (ix2 (0 : Fin 1) q) := by
  show V c main_v28 (((cfg0.win 10).blk t).view.emb (ix2 (0 : Fin 1) q)) = _
  refine congrArg _ (funext fun a => Fin.ext ?_)
  have hf := idx_facts t
  match a with
  | ⟨0, _⟩ => show win0_10.index t (0 : Fin 2) * 1 + 1 * 0 = 0; rw [hf.2.2.2.2.2.2.2.2.2.2.2.2.2.2.2.2.2.2.2.2.1]
  | ⟨1, _⟩ => show win0_10.index t (1 : Fin 2) * 64 + 1 * q.val = q.val; rw [hf.2.2.2.2.2.2.2.2.2.2.2.2.2.2.2.2.2.2.2.2.2.1]; omega

theorem emb11 (t : Fin cfg0.N) (p : Fin 5000) (q : Fin 64) :
    ((cfg0.win 11).blk t).view.emb (ix2 p q) = ix2 (rowOf t p) q := by
  have hf := idx_facts t
  funext a; apply Fin.ext
  match a with
  | ⟨0, _⟩ => show win0_11.index t (0 : Fin 2) * 5000 + 1 * p.val = t.val * 5000 + p.val; rw [hf.2.2.2.2.2.2.2.2.2.2.2.2.2.2.2.2.2.2.2.2.2.2.1]; omega
  | ⟨1, _⟩ => show win0_11.index t (1 : Fin 2) * 64 + 1 * q.val = q.val; rw [hf.2.2.2.2.2.2.2.2.2.2.2.2.2.2.2.2.2.2.2.2.2.2.2.1]; omega

theorem emb12 (t : Fin cfg0.N) (p : Fin 5000) (q : Fin 64) :
    ((cfg0.win 12).blk t).view.emb (ix2 p q) = ix2 (rowOf t p) q := by
  have hf := idx_facts t
  funext a; apply Fin.ext
  match a with
  | ⟨0, _⟩ => show win0_12.index t (0 : Fin 2) * 5000 + 1 * p.val = t.val * 5000 + p.val; rw [hf.2.2.2.2.2.2.2.2.2.2.2.2.2.2.2.2.2.2.2.2.2.2.2.2.1]; omega
  | ⟨1, _⟩ => show win0_12.index t (1 : Fin 2) * 64 + 1 * q.val = q.val; rw [hf.2.2.2.2.2.2.2.2.2.2.2.2.2.2.2.2.2.2.2.2.2.2.2.2.2]; omega

/-- What the layer's first output is as a whole array, of the arrays as the region finds them. -/
def G11 (c : Dev nD) : Gin.Feat := Gin.mlp true (V c main_v12) (V c main_v27) (V c main_v29) (V c main_v30) (V c main_v31) (V c main_v32) (V c main_v24) (V c main_v28) (V c main_arg0) (V c main_v10)

/-- The second output: the running sum plus the first. -/
def addF (a b : Gin.Feat) : Gin.Feat := fun i => a i + b i
def G12 (c : Dev nD) : Gin.Feat := addF (V c main_v0) (G11 V c)

/-- Entry `(p, q)` of the first output block at point `t` is entry `(5000·t + p, q)` of `G11`. -/
theorem out11_at (c : Dev nD) (t : Fin cfg0.N) (p : Fin 5000) (q : Fin 64) :
    out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q) = G11 V c (ix2 (rowOf t p) q) := by
  refine (out11_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  simp only [blk0, blk1, blk3, blk4, blk5, blk6, blk7, blk8, blk9, blk10]
  rfl

/-- The same for the second output block. -/
theorem out12_at (c : Dev nD) (t : Fin cfg0.N) (p : Fin 5000) (q : Fin 64) :
    out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (ix2 p q) = G12 V c (ix2 (rowOf t p) q) := by
  refine (out12_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) p q).trans ?_
  rw [out11_at V c t p q, blk2 V c t p q]
  rfl

/-- WHAT POINT `t` WRITES BACK to the first output is its row block of `G11`. -/
theorem flushed11_eq (c : Dev nD) (t : Fin cfg0.N) :
    (dat0 V c).flushed 11 t = ((cfg0.win 11).blk t).view.read (Elt Ideal) (G11 V c) := by
  show (cfg0.win 11).cut (grid0.coords t) ((dat0 V c).after 11 t) = _
  rw [after0_11]
  have key : ∀ j : S5000x64.Idx, out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) j = G11 V c (((cfg0.win 11).blk t).view.emb j) := by
    intro j
    obtain ⟨p, q, rfl⟩ : ∃ (p : Fin 5000) (q : Fin 64), j = ix2 p q := ⟨j 0, j 1, eq_ix2 j⟩
    rw [emb11]
    exact out11_at V c t p q
  exact funext key

theorem mem_blk11 (t : Fin cfg0.N) (i : S100000x64.Idx) :
    i ∈ ((cfg0.win 11).blk t).view.set ↔ ∀ a : Fin 2, win0_11.index t a * S5000x64.size a ≤ (i a).val ∧ (i a).val < win0_11.index t a * S5000x64.size a + S5000x64.size a := by
  show i ∈ ((View.whole main_v33_0).slice (win0_11.rect t)).set ↔ _
  rw [View.set_slice_whole, Rect.mem_set_unit]
  exact Iff.rfl

/-- Every row lies in the block of the point `row / 5000`. -/
theorem cover11 (i : S100000x64.Idx) : ∃ t : Fin cfg0.N, (cfg0.win 11).flush t = true ∧ i ∈ ((cfg0.win 11).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; rw [hN]; omega
  have hf := idx_facts ⟨(i 0).val / 5000, ht⟩
  refine ⟨⟨(i 0).val / 5000, ht⟩, flush0_11 _, ?_⟩
  rw [mem_blk11]
  intro a
  match a with
  | ⟨0, _⟩ => show win0_11.index ⟨(i 0).val / 5000, ht⟩ (0 : Fin 2) * 5000 ≤ (i 0).val ∧ (i 0).val < win0_11.index ⟨(i 0).val / 5000, ht⟩ (0 : Fin 2) * 5000 + 5000; rw [hf.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win0_11.index ⟨(i 0).val / 5000, ht⟩ (1 : Fin 2) * 64 ≤ (i 1).val ∧ (i 1).val < win0_11.index ⟨(i 0).val / 5000, ht⟩ (1 : Fin 2) * 64 + 64; rw [hf.2.2.2.2.2.2.2.2.2.2.2.2.2.2.2.2.2.2.2.2.2.2.2.1]; omega

/-- After the region the first output array is the layer's output. -/
theorem final11 (c : Dev nD) : (dat0 V c).arrAt 11 cfg0.N = G11 V c :=
  (dat0 V c).arrAt_eq_of_cover 11 (G11 V c) (fun t _ => flushed11_eq V c t) cover11

/-- WHAT POINT `t` WRITES BACK to the second output is its row block of `G12`. -/
theorem flushed12_eq (c : Dev nD) (t : Fin cfg0.N) :
    (dat0 V c).flushed 12 t = ((cfg0.win 12).blk t).view.read (Elt Ideal) (G12 V c) := by
  show (cfg0.win 12).cut (grid0.coords t) ((dat0 V c).after 12 t) = _
  rw [after0_12]
  have key : ∀ j : S5000x64.Idx, out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) j = G12 V c (((cfg0.win 12).blk t).view.emb j) := by
    intro j
    obtain ⟨p, q, rfl⟩ : ∃ (p : Fin 5000) (q : Fin 64), j = ix2 p q := ⟨j 0, j 1, eq_ix2 j⟩
    rw [emb12]
    exact out12_at V c t p q
  exact funext key

theorem mem_blk12 (t : Fin cfg0.N) (i : S100000x64.Idx) :
    i ∈ ((cfg0.win 12).blk t).view.set ↔ ∀ a : Fin 2, win0_12.index t a * S5000x64.size a ≤ (i a).val ∧ (i a).val < win0_12.index t a * S5000x64.size a + S5000x64.size a := by
  show i ∈ ((View.whole main_v33_1).slice (win0_12.rect t)).set ↔ _
  rw [View.set_slice_whole, Rect.mem_set_unit]
  exact Iff.rfl

/-- Every row lies in the block of the point `row / 5000`. -/
theorem cover12 (i : S100000x64.Idx) : ∃ t : Fin cfg0.N, (cfg0.win 12).flush t = true ∧ i ∈ ((cfg0.win 12).blk t).view.set := by
  have hi0 : (i 0).val < 100000 := (i 0).isLt
  have hi1 : (i 1).val < 64 := (i 1).isLt
  have hN : grid0.N = 20 := N_0
  have ht : (i 0).val / 5000 < cfg0.N := by show (i 0).val / 5000 < grid0.N; rw [hN]; omega
  have hf := idx_facts ⟨(i 0).val / 5000, ht⟩
  refine ⟨⟨(i 0).val / 5000, ht⟩, flush0_12 _, ?_⟩
  rw [mem_blk12]
  intro a
  match a with
  | ⟨0, _⟩ => show win0_12.index ⟨(i 0).val / 5000, ht⟩ (0 : Fin 2) * 5000 ≤ (i 0).val ∧ (i 0).val < win0_12.index ⟨(i 0).val / 5000, ht⟩ (0 : Fin 2) * 5000 + 5000; rw [hf.2.2.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win0_12.index ⟨(i 0).val / 5000, ht⟩ (1 : Fin 2) * 64 ≤ (i 1).val ∧ (i 1).val < win0_12.index ⟨(i 0).val / 5000, ht⟩ (1 : Fin 2) * 64 + 64; rw [hf.2.2.2.2.2.2.2.2.2.2.2.2.2.2.2.2.2.2.2.2.2.2.2.2.2]; omega

/-- After the region the second output array is the running sum plus the layer's output. -/
theorem final12 (c : Dev nD) : (dat0 V c).arrAt 12 cfg0.N = G12 V c :=
  (dat0 V c).arrAt_eq_of_cover 12 (G12 V c) (fun t _ => flushed12_eq V c t) cover12

end Cert.Gin.K0

end
-- ==== Proof.KPay1.lean ====
/-
  Region 1 of the kernel: what its body stores, read at an entry.  The body adds its block of `h` to its block of the
  aggregate, multiplies by the first matrix, normalises, rectifies, multiplies by the second matrix and adds the bias, rectifies again;
  the second output adds that to its block of the running sum.  Entry `(p, q)` of what is stored reads row `p` of the two
  row blocks and nothing else of them.  A change of float format is the identity on the extended reals.
-/
import proofs.«109376_j64518998720917_1_alg».proof.Proof.Gen.KernelIdeal.Frame
import proofs.«109376_j64518998720917_1_alg».proof.Proof.Spec
import proofs.«109376_j64518998720917_1_alg».proof.Proof.KMatmul
import Idealize.ShloMosaic.Lib.Pipeline.Value
import Idealize.ShloMosaic.Lib.ValueLayout

noncomputable section

namespace Cert.Gin.K1

open Cert.KernelIdeal Cert.KernelIdeal.Gen Idealize.ShloMosaic Idealize.ShloMosaic.TcCoe Idealize.SL.Sem Idealize.ShloMosaic.ValueIdx Cert.Gin.K

theorem hz : (![0, 0] : Fin 2 → Nat) = fun _ => 0 := funext fun a => by fin_cases a <;> rfl

/-- The hidden row: entry `(p, k)` of the rectified, normalised first linear map of the summed blocks. -/
theorem pay3 (h a : Vec Ideal S5000x64 .f32) (W1 : Vec Ideal S64x64 .f32) (b1 v γ μ β : Vec Ideal S1x64 .f32) (p : Fin 5000) (k : Fin 64) :
    k1_pay3 (F := Ideal) h a W1 b1 v γ μ β (ix2 p k)
      = Gin.hidden (fun k' k => W1 (ix2 k' k)) (fun k => b1 (ix2 0 k)) (fun k => γ (ix2 0 k)) (fun k => β (ix2 0 k))
          (fun k => μ (ix2 0 k)) (fun k => v (ix2 0 k)) (fun k' => h (ix2 p k') + a (ix2 p k')) k := by
  unfold k1_pay3 Gin.hidden Gin.eps Gin.zero
  simp only [shapeCast_self, truncf_apply, maximumf_apply, addf_apply, subf_apply, mulf_apply, broadcast_apply,
    broadcastTo_1b_ab_apply, matmul_rows, rsqrt, Ideal.rsqrt_def]
  rfl

theorem pay4 (w : Vec Ideal S64x64 .f32) (i : S64x64.Idx) : k1_pay4 (F := Ideal) w i = w i := by
  unfold k1_pay4
  simp only [shapeCast_self]

/-- The first output: the second linear map of the hidden row, rectified. -/
theorem pay1 (z : FVec Ideal S5000x64 .bf16) (W2 : FVec Ideal S64x64 .f32) (b2 : Vec Ideal S1x64 .f32) (p : Fin 5000) (q : Fin 64) :
    k1_pay1 (F := Ideal) z W2 b2 (ix2 p q)
      = Gin.act true (Gin.outLin (fun k q => W2 (ix2 k q)) (fun q => b2 (ix2 0 q)) (fun k => z (ix2 p k)) q) := by
  unfold k1_pay1 Gin.act Gin.outLin Gin.zero
  simp only [shapeCast_self, truncf_apply, maximumf_apply, addf_apply, broadcast_apply, broadcastTo_1b_ab_apply, matmul_rows]
  rfl

/-- Entry `(p, q)` of the first output block, from the input blocks. -/
theorem out11_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out1_11 (F := Ideal) x0 x1 x2 x3 x4 x5 x6 x7 x8 x9 x10 (ix2 p q)
      = Gin.act true (Gin.outLin (fun k q => x9 (ix2 k q)) (fun q => x10 (ix2 0 q))
          (Gin.hidden (fun k' k => x3 (ix2 k' k)) (fun k => x4 (ix2 0 k)) (fun k => x5 (ix2 0 k)) (fun k => x6 (ix2 0 k))
            (fun k => x7 (ix2 0 k)) (fun k => x8 (ix2 0 k)) (fun k' => x0 (ix2 p k') + x1 (ix2 p k'))) q) := by
  unfold out1_11
  rw [View.canon_unit_zero hz]
  simp only [View.ld_unit_zero (S := S5000x64) hz, View.ld_unit_zero (S := S64x64) hz, View.ld_unit_zero (S := S1x64) hz]
  rw [pay1]
  simp only [pay3, pay4]

/-- Entry `(p, q)` of the second output block: the running sum's block plus the first output. -/
theorem out12_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out1_12 (F := Ideal) x0 x1 x2 x3 x4 x5 x6 x7 x8 x9 x10 (ix2 p q)
      = x2 (ix2 p q) + out1_11 (F := Ideal) x0 x1 x2 x3 x4 x5 x6 x7 x8 x9 x10 (ix2 p q) := by
  unfold out1_12 out1_11
  rw [View.canon_unit_zero hz, View.canon_unit_zero hz]
  simp only [View.ld_unit_zero (S := S5000x64) hz, View.ld_unit_zero (S := S64x64) hz, View.ld_unit_zero (S := S1x64) hz]
  unfold k1_pay2
  simp only [shapeCast_self, addf_apply]

end Cert.Gin.K1

end
-- ==== Proof.KBlocks1.lean ====
/-
  Region 1 of the kernel, from blocks to whole arrays.  The grid has 20 points; point `t` reads rows
  `5000·t … 5000·t + 4999` of the three row-blocked inputs (the features, their aggregate, the running sum), the whole of
  each parameter array, and writes the same rows of the two outputs.  Since entry `(r, q)` of a layer depends on row `r`
  of its inputs only, what point `t` writes is rows `5000·t …` of ONE whole-array function of the arrays as the region
  finds them; the 20 row blocks tile the array, so after the region each output array IS that function.
-/
import proofs.«109376_j64518998720917_1_alg».proof.Proof.KPay1
import proofs.«109376_j64518998720917_1_alg».proof.Proof.Gen.KernelIdeal.Frame
import Idealize.ShloMosaic.Lib.Pipeline.Value

set_option maxRecDepth 16384

noncomputable section

namespace Cert.Gin.K1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Where each window's block sits at point `t`: the row-blocked windows at block row `t`, every other window at its one
    block; decided over the 20 points. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (0 : Fin 2) = 0
    ∧ win1_10.index t (1 : Fin 2) = 0
    ∧ win1_11.index t (0 : Fin 2) = t.val
    ∧ win1_11.index t (1 : Fin 2) = 0
    ∧ win1_12.index t (0 : Fin 2) = t.val
    ∧ win1_12.index t (1 : Fin 2) = 0 :=
  (by decide +kernel : ∀ t : Fin grid1.N, _)

/-- The array row that row `p` of point `t`'s block is. -/
def rowOf (t : Fin cfg1.N) (p : Fin 5000) : Fin 100000 :=
  ⟨t.val * 5000 + p.val, by have h : t.val < grid1.N := t.isLt; rw [N_1] at h; have := p.isLt; omega⟩

theorem blk0 (c : Dev nD) (t : Fin cfg1.N) (p : Fin 5000) (q : Fin 64) :
    iblk1 V c 0 t (ix2 p q) = V c main_v33_0 (ix2 (rowOf t p) q) := by
  show V c main_v33_0 (((cfg1.win 0).blk t).view.emb (ix2 p q)) = _
  refine congrArg _ (funext fun a => Fin.ext ?_)
  have hf := idx_facts t
  match a with
  | ⟨0, _⟩ => show win1_0.index t (0 : Fin 2) * 5000 + 1 * p.val = t.val * 5000 + p.val; rw [hf.1]; omega
  | ⟨1, _⟩ => show win1_0.index t (1 : Fin 2) * 64 + 1 * q.val = q.val; rw [hf.2.1]; omega

theorem blk1 (c : Dev nD) (t : Fin cfg1.N) (p : Fin 5000) (q : Fin 64) :
    iblk1 V c 1 t (ix2 p q) = V c main_v43 (ix2 (rowOf t p) q) := by
  show V c main_v43 (((cfg1.win 1).blk t).view.emb (ix2 p q)) = _
  refine congrArg _ (funext fun a => Fin.ext ?_)
  have hf := idx_facts t
  match a with
  | ⟨0, _⟩ => show win1_1.index t (0 : Fin 2) * 5000 + 1 * p.val = t.val * 5000 + p.val; rw [hf.2.2.1]; omega
  | ⟨1, _⟩ => show win1_1.index t (1 : Fin 2) * 64 + 1 * q.val = q.val; rw [hf.2.2.2.1]; omega

theorem blk2 (c : Dev nD) (t : Fin cfg1.N) (p : Fin 5000) (q : Fin 64) :
    iblk1 V c 2 t (ix2 p q) = V c main_v33_1 (ix2 (rowOf t p) q) := by
  show V c main_v33_1 (((cfg1.win 2).blk t).view.emb (ix2 p q)) = _
  refine congrArg _ (funext fun a => Fin.ext ?_)
  have hf := idx_facts t
  match a with
  | ⟨0, _⟩ => show win1_2.index t (0 : Fin 2) * 5000 + 1 * p.val = t.val * 5000 + p.val; rw [hf.2.2.2.2.1]; omega
  | ⟨1, _⟩ => show win1_2.index t (1 : Fin 2) * 64 + 1 * q.val = q.val; rw [hf.2.2.2.2.2.1]; omega

theorem blk3 (c : Dev nD) (t : Fin cfg1.N) (p : Fin 64) (q : Fin 64) :
    iblk1 V c 3 t (ix2 p q) = V c main_v45 (ix2 p q) := by
  show V c main_v45 (((cfg1.win 3).blk t).view.emb (ix2 p q)) = _
  refine congrArg _ (funext fun a => Fin.ext ?_)
  have hf := idx_facts t
  match a with
  | ⟨0, _⟩ => show win1_3.index t (0 : Fin 2) * 64 + 1 * p.val = p.val; rw [hf.2.2.2.2.2.2.1]; omega
  | ⟨1, _⟩ => show win1_3.index t (1 : Fin 2) * 64 + 1 * q.val = q.val; rw [hf.2.2.2.2.2.2.2.1]; omega

theorem blk4 (c : Dev nD) (t : Fin cfg1.N) (q : Fin 64) :
    iblk1 V c 4 t (ix2 (0 : Fin 1) q) = V c main_v60 (ix2 (0 : Fin 1) q) := by
  show V c main_v60 (((cfg1.win 4).blk t).view.emb (ix2 (0 : Fin 1) q)) = _
  refine congrArg _ (funext fun a => Fin.ext ?_)
  have hf := idx_facts t
  match a with
  | ⟨0, _⟩ => show win1_4.index t (0 : Fin 2) * 1 + 1 * 0 = 0; rw [hf.2.2.2.2.2.2.2.2.1]
  | ⟨1, _⟩ => show win1_4.index t (1 : Fin 2) * 64 + 1 * q.val = q.val; rw [hf.2.2.2.2.2.2.2.2.2.1]; omega

theorem blk5 (c : Dev nD) (t : Fin cfg1.N) (q : Fin 64) :
    iblk1 V c 5 t (ix2 (0 : Fin 1) q) = V c main_v62 (ix2 (0 : Fin 1) q) := by
  show V c main_v62 (((cfg1.win 5).blk t).view.emb (ix2 (0 : Fin 1) q)) = _
  refine congrArg _ (funext fun a => Fin.ext ?_)
  have hf := idx_facts t
  match a with
  | ⟨0, _⟩ => show win1_5.index t (0 : Fin 2) * 1 + 1 * 0 = 0; rw [hf.2.2.2.2.2.2.2.2.2.2.1]
  | ⟨1, _⟩ => show win1_5.index t (1 : Fin 2) * 64 + 1 * q.val = q.val; rw [hf.2.2.2.2.2.2.2.2.2.2.2.1]; omega

theorem blk6 (c : Dev nD) (t : Fin cfg1.N) (q : Fin 64) :
    iblk1 V c 6 t (ix2 (0 : Fin 1) q) = V c main_v63 (ix2 (0 : Fin 1) q) := by
  show V c main_v63 (((cfg1.win 6).blk t).view.emb (ix2 (0 : Fin 1) q)) = _
  refine congrArg _ (funext fun a => Fin.ext ?_)
  have hf := idx_facts t
  match a with
  | ⟨0, _⟩ => show win1_6.index t (0 : Fin 2) * 1 + 1 * 0 = 0; rw [hf.2.2.2.2.2.2.2.2.2.2.2.2.1]
  | ⟨1, _⟩ => show win1_6.index t (1 : Fin 2) * 64 + 1 * q.val = q.val; rw [hf.2.2.2.2.2.2.2.2.2.2.2.2.2.1]; omega

theorem blk7 (c : Dev nD) (t : Fin cfg1.N) (q : Fin 64) :
    iblk1 V c 7 t (ix2 (0 : Fin 1) q) = V c main_v64 (ix2 (0 : Fin 1) q) := by
  show V c main_v64 (((cfg1.win 7).blk t).view.emb (ix2 (0 : Fin 1) q)) = _
  refine congrArg _ (funext fun a => Fin.ext ?_)
  have hf := idx_facts t
  match a with
  | ⟨0, _⟩ => show win1_7.index t (0 : Fin 2) * 1 + 1 * 0 = 0; rw [hf.2.2.2.2.2.2.2.2.2.2.2.2.2.2.1]
  | ⟨1, _⟩ => show win1_7.index t (1 : Fin 2) * 64 + 1 * q.val = q.val; rw [hf.2.2.2.2.2.2.2.2.2.2.2.2.2.2.2.1]; omega

theorem blk8 (c : Dev nD) (t : Fin cfg1.N) (q : Fin 64) :
    iblk1 V c 8 t (ix2 (0 : Fin 1) q) = V c main_v65 (ix2 (0 : Fin 1) q) := by
  show V c main_v65 (((cfg1.win 8).blk t).view.emb (ix2 (0 : Fin 1) q)) = _
  refine congrArg _ (funext fun a => Fin.ext ?_)
  have hf := idx_facts t
  match a with
  | ⟨0, _⟩ => show win1_8.index t (0 : Fin 2) * 1 + 1 * 0 = 0; rw [hf.2.2.2.2.2.2.2.2.2.2.2.2.2.2.2.2.1]
  | ⟨1, _⟩ => show win1_8.index t (1 : Fin 2) * 64 + 1 * q.val = q.val; rw [hf.2.2.2.2.2.2.2.2.2.2.2.2.2.2.2.2.2.1]; omega

theorem blk9 (c : Dev nD) (t : Fin cfg1.N) (p : Fin 64) (q : Fin 64) :
    iblk1 V c 9 t (ix2 p q) = V c main_v57 (ix2 p q) := by
  show V c main_v57 (((cfg1.win 9).blk t).view.emb (ix2 p q)) = _
  refine congrArg _ (funext fun a => Fin.ext ?_)
  have hf := idx_facts t
  match a with
  | ⟨0, _⟩ => show win1_9.index t (0 : Fin 2) * 64 + 1 * p.val = p.val; rw [hf.2.2.2.2.2.2.2.2.2.2.2.2.2.2.2.2.2.2.1]; omega
  | ⟨1, _⟩ => show win1_9.index t (1 : Fin 2) * 64 + 1 * q.val = q.val; rw [hf.2.2.2.2.2.2.2.2.2.2.2.2.2.2.2.2.2.2.2.1]; omega

theorem blk10 (c : Dev nD) (t : Fin cfg1.N) (q : Fin 64) :
    iblk1 V c 10 t (ix2 (0 : Fin 1) q) = V c main_v61 (ix2 (0 : Fin 1) q) := by
  show V c main_v61 (((cfg1.win 10).blk t).view.emb (ix2 (0 : Fin 1) q)) = _
  refine congrArg _ (funext fun a => Fin.ext ?_)
  have hf := idx_facts t
  match a with
  | ⟨0, _⟩ => show win1_10.index t (0 : Fin 2) * 1 + 1 * 0 = 0; rw [hf.2.2.2.2.2.2.2.2.2.2.2.2.2.2.2.2.2.2.2.2.1]
  | ⟨1, _⟩ => show win1_10.index t (1 : Fin 2) * 64 + 1 * q.val = q.val; rw [hf.2.2.2.2.2.2.2.2.2.2.2.2.2.2.2.2.2.2.2.2.2.1]; omega

theorem emb11 (t : Fin cfg1.N) (p : Fin 5000) (q : Fin 64) :
    ((cfg1.win 11).blk t).view.emb (ix2 p q) = ix2 (rowOf t p) q := by
  have hf := idx_facts t
  funext a; apply Fin.ext
  match a with
  | ⟨0, _⟩ => show win1_11.index t (0 : Fin 2) * 5000 + 1 * p.val = t.val * 5000 + p.val; rw [hf.2.2.2.2.2.2.2.2.2.2.2.2.2.2.2.2.2.2.2.2.2.2.1]; omega
  | ⟨1, _⟩ => show win1_11.index t (1 : Fin 2) * 64 + 1 * q.val = q.val; rw [hf.2.2.2.2.2.2.2.2.2.2.2.2.2.2.2.2.2.2.2.2.2.2.2.1]; omega

theorem emb12 (t : Fin cfg1.N) (p : Fin 5000) (q : Fin 64) :
    ((cfg1.win 12).blk t).view.emb (ix2 p q) = ix2 (rowOf t p) q := by
  have hf := idx_facts t
  funext a; apply Fin.ext
  match a with
  | ⟨0, _⟩ => show win1_12.index t (0 : Fin 2) * 5000 + 1 * p.val = t.val * 5000 + p.val; rw [hf.2.2.2.2.2.2.2.2.2.2.2.2.2.2.2.2.2.2.2.2.2.2.2.2.1]; omega
  | ⟨1, _⟩ => show win1_12.index t (1 : Fin 2) * 64 + 1 * q.val = q.val; rw [hf.2.2.2.2.2.2.2.2.2.2.2.2.2.2.2.2.2.2.2.2.2.2.2.2.2]; omega

/-- What the layer's first output is as a whole array, of the arrays as the region finds them. -/
def G11 (c : Dev nD) : Gin.Feat := Gin.mlp true (V c main_v45) (V c main_v60) (V c main_v62) (V c main_v63) (V c main_v64) (V c main_v65) (V c main_v57) (V c main_v61) (V c main_v33_0) (V c main_v43)

/-- The second output: the running sum plus the first. -/
def addF (a b : Gin.Feat) : Gin.Feat := fun i => a i + b i
def G12 (c : Dev nD) : Gin.Feat := addF (V c main_v33_1) (G11 V c)

/-- Entry `(p, q)` of the first output block at point `t` is entry `(5000·t + p, q)` of `G11`. -/
theorem out11_at (c : Dev nD) (t : Fin cfg1.N) (p : Fin 5000) (q : Fin 64) :
    out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = G11 V c (ix2 (rowOf t p) q) := by
  refine (out11_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  simp only [blk0, blk1, blk3, blk4, blk5, blk6, blk7, blk8, blk9, blk10]
  rfl

/-- The same for the second output block. -/
theorem out12_at (c : Dev nD) (t : Fin cfg1.N) (p : Fin 5000) (q : Fin 64) :
    out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (ix2 p q) = G12 V c (ix2 (rowOf t p) q) := by
  refine (out12_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) p q).trans ?_
  rw [out11_at V c t p q, blk2 V c t p q]
  rfl

/-- WHAT POINT `t` WRITES BACK to the first output is its row block of `G11`. -/
theorem flushed11_eq (c : Dev nD) (t : Fin cfg1.N) :
    (dat1 V c).flushed 11 t = ((cfg1.win 11).blk t).view.read (Elt Ideal) (G11 V c) := by
  show (cfg1.win 11).cut (grid1.coords t) ((dat1 V c).after 11 t) = _
  rw [after1_11]
  have key : ∀ j : S5000x64.Idx, out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j = G11 V c (((cfg1.win 11).blk t).view.emb j) := by
    intro j
    obtain ⟨p, q, rfl⟩ : ∃ (p : Fin 5000) (q : Fin 64), j = ix2 p q := ⟨j 0, j 1, eq_ix2 j⟩
    rw [emb11]
    exact out11_at V c t p q
  exact funext key

theorem mem_blk11 (t : Fin cfg1.N) (i : S100000x64.Idx) :
    i ∈ ((cfg1.win 11).blk t).view.set ↔ ∀ a : Fin 2, win1_11.index t a * S5000x64.size a ≤ (i a).val ∧ (i a).val < win1_11.index t a * S5000x64.size a + S5000x64.size a := by
  show i ∈ ((View.whole main_v66_0).slice (win1_11.rect t)).set ↔ _
  rw [View.set_slice_whole, Rect.mem_set_unit]
  exact Iff.rfl

/-- Every row lies in the block of the point `row / 5000`. -/
theorem cover11 (i : S100000x64.Idx) : ∃ t : Fin cfg1.N, (cfg1.win 11).flush t = true ∧ i ∈ ((cfg1.win 11).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  have hf := idx_facts ⟨(i 0).val / 5000, ht⟩
  refine ⟨⟨(i 0).val / 5000, ht⟩, flush1_11 _, ?_⟩
  rw [mem_blk11]
  intro a
  match a with
  | ⟨0, _⟩ => show win1_11.index ⟨(i 0).val / 5000, ht⟩ (0 : Fin 2) * 5000 ≤ (i 0).val ∧ (i 0).val < win1_11.index ⟨(i 0).val / 5000, ht⟩ (0 : Fin 2) * 5000 + 5000; rw [hf.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win1_11.index ⟨(i 0).val / 5000, ht⟩ (1 : Fin 2) * 64 ≤ (i 1).val ∧ (i 1).val < win1_11.index ⟨(i 0).val / 5000, ht⟩ (1 : Fin 2) * 64 + 64; rw [hf.2.2.2.2.2.2.2.2.2.2.2.2.2.2.2.2.2.2.2.2.2.2.2.1]; omega

/-- After the region the first output array is the layer's output. -/
theorem final11 (c : Dev nD) : (dat1 V c).arrAt 11 cfg1.N = G11 V c :=
  (dat1 V c).arrAt_eq_of_cover 11 (G11 V c) (fun t _ => flushed11_eq V c t) cover11

/-- WHAT POINT `t` WRITES BACK to the second output is its row block of `G12`. -/
theorem flushed12_eq (c : Dev nD) (t : Fin cfg1.N) :
    (dat1 V c).flushed 12 t = ((cfg1.win 12).blk t).view.read (Elt Ideal) (G12 V c) := by
  show (cfg1.win 12).cut (grid1.coords t) ((dat1 V c).after 12 t) = _
  rw [after1_12]
  have key : ∀ j : S5000x64.Idx, out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) j = G12 V c (((cfg1.win 12).blk t).view.emb j) := by
    intro j
    obtain ⟨p, q, rfl⟩ : ∃ (p : Fin 5000) (q : Fin 64), j = ix2 p q := ⟨j 0, j 1, eq_ix2 j⟩
    rw [emb12]
    exact out12_at V c t p q
  exact funext key

theorem mem_blk12 (t : Fin cfg1.N) (i : S100000x64.Idx) :
    i ∈ ((cfg1.win 12).blk t).view.set ↔ ∀ a : Fin 2, win1_12.index t a * S5000x64.size a ≤ (i a).val ∧ (i a).val < win1_12.index t a * S5000x64.size a + S5000x64.size a := by
  show i ∈ ((View.whole main_v66_1).slice (win1_12.rect t)).set ↔ _
  rw [View.set_slice_whole, Rect.mem_set_unit]
  exact Iff.rfl

/-- Every row lies in the block of the point `row / 5000`. -/
theorem cover12 (i : S100000x64.Idx) : ∃ t : Fin cfg1.N, (cfg1.win 12).flush t = true ∧ i ∈ ((cfg1.win 12).blk t).view.set := by
  have hi0 : (i 0).val < 100000 := (i 0).isLt
  have hi1 : (i 1).val < 64 := (i 1).isLt
  have hN : grid1.N = 20 := N_1
  have ht : (i 0).val / 5000 < cfg1.N := by show (i 0).val / 5000 < grid1.N; rw [hN]; omega
  have hf := idx_facts ⟨(i 0).val / 5000, ht⟩
  refine ⟨⟨(i 0).val / 5000, ht⟩, flush1_12 _, ?_⟩
  rw [mem_blk12]
  intro a
  match a with
  | ⟨0, _⟩ => show win1_12.index ⟨(i 0).val / 5000, ht⟩ (0 : Fin 2) * 5000 ≤ (i 0).val ∧ (i 0).val < win1_12.index ⟨(i 0).val / 5000, ht⟩ (0 : Fin 2) * 5000 + 5000; rw [hf.2.2.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win1_12.index ⟨(i 0).val / 5000, ht⟩ (1 : Fin 2) * 64 ≤ (i 1).val ∧ (i 1).val < win1_12.index ⟨(i 0).val / 5000, ht⟩ (1 : Fin 2) * 64 + 64; rw [hf.2.2.2.2.2.2.2.2.2.2.2.2.2.2.2.2.2.2.2.2.2.2.2.2.2]; omega

/-- After the region the second output array is the running sum plus the layer's output. -/
theorem final12 (c : Dev nD) : (dat1 V c).arrAt 12 cfg1.N = G12 V c :=
  (dat1 V c).arrAt_eq_of_cover 12 (G12 V c) (fun t _ => flushed12_eq V c t) cover12

end Cert.Gin.K1

end
-- ==== Proof.KPay2.lean ====
/-
  Region 2 of the kernel: what its body stores, read at an entry.  The body adds its block of `h` to its block of the
  aggregate, multiplies by the first matrix, normalises, rectifies, multiplies by the second matrix and adds the bias;
  the second output adds that to its block of the running sum.  Entry `(p, q)` of what is stored reads row `p` of the two
  row blocks and nothing else of them.  A change of float format is the identity on the extended reals.
-/
import proofs.«109376_j64518998720917_1_alg».proof.Proof.Gen.KernelIdeal.Frame
import proofs.«109376_j64518998720917_1_alg».proof.Proof.Spec
import proofs.«109376_j64518998720917_1_alg».proof.Proof.KMatmul
import Idealize.ShloMosaic.Lib.Pipeline.Value
import Idealize.ShloMosaic.Lib.ValueLayout

noncomputable section

namespace Cert.Gin.K2

open Cert.KernelIdeal Cert.KernelIdeal.Gen Idealize.ShloMosaic Idealize.ShloMosaic.TcCoe Idealize.SL.Sem Idealize.ShloMosaic.ValueIdx Cert.Gin.K

theorem hz : (![0, 0] : Fin 2 → Nat) = fun _ => 0 := funext fun a => by fin_cases a <;> rfl

/-- The hidden row: entry `(p, k)` of the rectified, normalised first linear map of the summed blocks. -/
theorem pay3 (h a : Vec Ideal S5000x64 .f32) (W1 : Vec Ideal S64x64 .f32) (b1 v γ μ β : Vec Ideal S1x64 .f32) (p : Fin 5000) (k : Fin 64) :
    k2_pay3 (F := Ideal) h a W1 b1 v γ μ β (ix2 p k)
      = Gin.hidden (fun k' k => W1 (ix2 k' k)) (fun k => b1 (ix2 0 k)) (fun k => γ (ix2 0 k)) (fun k => β (ix2 0 k))
          (fun k => μ (ix2 0 k)) (fun k => v (ix2 0 k)) (fun k' => h (ix2 p k') + a (ix2 p k')) k := by
  unfold k2_pay3 Gin.hidden Gin.eps Gin.zero
  simp only [shapeCast_self, truncf_apply, maximumf_apply, addf_apply, subf_apply, mulf_apply, broadcast_apply,
    broadcastTo_1b_ab_apply, matmul_rows, rsqrt, Ideal.rsqrt_def]
  rfl

theorem pay4 (w : Vec Ideal S64x64 .f32) (i : S64x64.Idx) : k2_pay4 (F := Ideal) w i = w i := by
  unfold k2_pay4
  simp only [shapeCast_self]

/-- The first output: the second linear map of the hidden row. -/
theorem pay1 (z : FVec Ideal S5000x64 .bf16) (W2 : FVec Ideal S64x64 .f32) (b2 : Vec Ideal S1x64 .f32) (p : Fin 5000) (q : Fin 64) :
    k2_pay1 (F := Ideal) z W2 b2 (ix2 p q)
      = Gin.act false (Gin.outLin (fun k q => W2 (ix2 k q)) (fun q => b2 (ix2 0 q)) (fun k => z (ix2 p k)) q) := by
  unfold k2_pay1 Gin.act Gin.outLin Gin.zero
  simp only [shapeCast_self, truncf_apply, maximumf_apply, addf_apply, broadcast_apply, broadcastTo_1b_ab_apply, matmul_rows]

/-- Entry `(p, q)` of the first output block, from the input blocks. -/
theorem out11_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out2_11 (F := Ideal) x0 x1 x2 x3 x4 x5 x6 x7 x8 x9 x10 (ix2 p q)
      = Gin.act false (Gin.outLin (fun k q => x9 (ix2 k q)) (fun q => x10 (ix2 0 q))
          (Gin.hidden (fun k' k => x3 (ix2 k' k)) (fun k => x4 (ix2 0 k)) (fun k => x5 (ix2 0 k)) (fun k => x6 (ix2 0 k))
            (fun k => x7 (ix2 0 k)) (fun k => x8 (ix2 0 k)) (fun k' => x0 (ix2 p k') + x1 (ix2 p k'))) q) := by
  unfold out2_11
  rw [View.canon_unit_zero hz]
  simp only [View.ld_unit_zero (S := S5000x64) hz, View.ld_unit_zero (S := S64x64) hz, View.ld_unit_zero (S := S1x64) hz]
  rw [pay1]
  simp only [pay3, pay4]

/-- Entry `(p, q)` of the second output block: the running sum's block plus the first output. -/
theorem out12_apply (x0 x1 x2 : Vec Ideal S5000x64 .f32) (x3 : Vec Ideal S64x64 .f32) (x4 x5 x6 x7 x8 : Vec Ideal S1x64 .f32)
    (x9 : Vec Ideal S64x64 .f32) (x10 : Vec Ideal S1x64 .f32) (p : Fin 5000) (q : Fin 64) :
    out2_12 (F := Ideal) x0 x1 x2 x3 x4 x5 x6 x7 x8 x9 x10 (ix2 p q)
      = x2 (ix2 p q) + out2_11 (F := Ideal) x0 x1 x2 x3 x4 x5 x6 x7 x8 x9 x10 (ix2 p q) := by
  unfold out2_12 out2_11
  rw [View.canon_unit_zero hz, View.canon_unit_zero hz]
  simp only [View.ld_unit_zero (S := S5000x64) hz, View.ld_unit_zero (S := S64x64) hz, View.ld_unit_zero (S := S1x64) hz]
  unfold k2_pay2
  simp only [shapeCast_self, addf_apply]

end Cert.Gin.K2

end
-- ==== Proof.KBlocks2.lean ====
/-
  Region 2 of the kernel, from blocks to whole arrays.  The grid has 20 points; point `t` reads rows
  `5000·t … 5000·t + 4999` of the three row-blocked inputs (the features, their aggregate, the running sum), the whole of
  each parameter array, and writes the same rows of the two outputs.  Since entry `(r, q)` of a layer depends on row `r`
  of its inputs only, what point `t` writes is rows `5000·t …` of ONE whole-array function of the arrays as the region
  finds them; the 20 row blocks tile the array, so after the region each output array IS that function.
-/
import proofs.«109376_j64518998720917_1_alg».proof.Proof.KPay2
import proofs.«109376_j64518998720917_1_alg».proof.Proof.Gen.KernelIdeal.Frame
import Idealize.ShloMosaic.Lib.Pipeline.Value

set_option maxRecDepth 16384

noncomputable section

namespace Cert.Gin.K2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- Where each window's block sits at point `t`: the row-blocked windows at block row `t`, every other window at its one
    block; decided over the 20 points. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (0 : Fin 2) = 0
    ∧ win2_10.index t (1 : Fin 2) = 0
    ∧ win2_11.index t (0 : Fin 2) = t.val
    ∧ win2_11.index t (1 : Fin 2) = 0
    ∧ win2_12.index t (0 : Fin 2) = t.val
    ∧ win2_12.index t (1 : Fin 2) = 0 :=
  (by decide +kernel : ∀ t : Fin grid2.N, _)

/-- The array row that row `p` of point `t`'s block is. -/
def rowOf (t : Fin cfg2.N) (p : Fin 5000) : Fin 100000 :=
  ⟨t.val * 5000 + p.val, by have h : t.val < grid2.N := t.isLt; rw [N_2] at h; have := p.isLt; omega⟩

theorem blk0 (c : Dev nD) (t : Fin cfg2.N) (p : Fin 5000) (q : Fin 64) :
    iblk2 V c 0 t (ix2 p q) = V c main_v66_0 (ix2 (rowOf t p) q) := by
  show V c main_v66_0 (((cfg2.win 0).blk t).view.emb (ix2 p q)) = _
  refine congrArg _ (funext fun a => Fin.ext ?_)
  have hf := idx_facts t
  match a with
  | ⟨0, _⟩ => show win2_0.index t (0 : Fin 2) * 5000 + 1 * p.val = t.val * 5000 + p.val; rw [hf.1]; omega
  | ⟨1, _⟩ => show win2_0.index t (1 : Fin 2) * 64 + 1 * q.val = q.val; rw [hf.2.1]; omega

theorem blk1 (c : Dev nD) (t : Fin cfg2.N) (p : Fin 5000) (q : Fin 64) :
    iblk2 V c 1 t (ix2 p q) = V c main_v76 (ix2 (rowOf t p) q) := by
  show V c main_v76 (((cfg2.win 1).blk t).view.emb (ix2 p q)) = _
  refine congrArg _ (funext fun a => Fin.ext ?_)
  have hf := idx_facts t
  match a with
  | ⟨0, _⟩ => show win2_1.index t (0 : Fin 2) * 5000 + 1 * p.val = t.val * 5000 + p.val; rw [hf.2.2.1]; omega
  | ⟨1, _⟩ => show win2_1.index t (1 : Fin 2) * 64 + 1 * q.val = q.val; rw [hf.2.2.2.1]; omega

theorem blk2 (c : Dev nD) (t : Fin cfg2.N) (p : Fin 5000) (q : Fin 64) :
    iblk2 V c 2 t (ix2 p q) = V c main_v66_1 (ix2 (rowOf t p) q) := by
  show V c main_v66_1 (((cfg2.win 2).blk t).view.emb (ix2 p q)) = _
  refine congrArg _ (funext fun a => Fin.ext ?_)
  have hf := idx_facts t
  match a with
  | ⟨0, _⟩ => show win2_2.index t (0 : Fin 2) * 5000 + 1 * p.val = t.val * 5000 + p.val; rw [hf.2.2.2.2.1]; omega
  | ⟨1, _⟩ => show win2_2.index t (1 : Fin 2) * 64 + 1 * q.val = q.val; rw [hf.2.2.2.2.2.1]; omega

theorem blk3 (c : Dev nD) (t : Fin cfg2.N) (p : Fin 64) (q : Fin 64) :
    iblk2 V c 3 t (ix2 p q) = V c main_v78 (ix2 p q) := by
  show V c main_v78 (((cfg2.win 3).blk t).view.emb (ix2 p q)) = _
  refine congrArg _ (funext fun a => Fin.ext ?_)
  have hf := idx_facts t
  match a with
  | ⟨0, _⟩ => show win2_3.index t (0 : Fin 2) * 64 + 1 * p.val = p.val; rw [hf.2.2.2.2.2.2.1]; omega
  | ⟨1, _⟩ => show win2_3.index t (1 : Fin 2) * 64 + 1 * q.val = q.val; rw [hf.2.2.2.2.2.2.2.1]; omega

theorem blk4 (c : Dev nD) (t : Fin cfg2.N) (q : Fin 64) :
    iblk2 V c 4 t (ix2 (0 : Fin 1) q) = V c main_v93 (ix2 (0 : Fin 1) q) := by
  show V c main_v93 (((cfg2.win 4).blk t).view.emb (ix2 (0 : Fin 1) q)) = _
  refine congrArg _ (funext fun a => Fin.ext ?_)
  have hf := idx_facts t
  match a with
  | ⟨0, _⟩ => show win2_4.index t (0 : Fin 2) * 1 + 1 * 0 = 0; rw [hf.2.2.2.2.2.2.2.2.1]
  | ⟨1, _⟩ => show win2_4.index t (1 : Fin 2) * 64 + 1 * q.val = q.val; rw [hf.2.2.2.2.2.2.2.2.2.1]; omega

theorem blk5 (c : Dev nD) (t : Fin cfg2.N) (q : Fin 64) :
    iblk2 V c 5 t (ix2 (0 : Fin 1) q) = V c main_v95 (ix2 (0 : Fin 1) q) := by
  show V c main_v95 (((cfg2.win 5).blk t).view.emb (ix2 (0 : Fin 1) q)) = _
  refine congrArg _ (funext fun a => Fin.ext ?_)
  have hf := idx_facts t
  match a with
  | ⟨0, _⟩ => show win2_5.index t (0 : Fin 2) * 1 + 1 * 0 = 0; rw [hf.2.2.2.2.2.2.2.2.2.2.1]
  | ⟨1, _⟩ => show win2_5.index t (1 : Fin 2) * 64 + 1 * q.val = q.val; rw [hf.2.2.2.2.2.2.2.2.2.2.2.1]; omega

theorem blk6 (c : Dev nD) (t : Fin cfg2.N) (q : Fin 64) :
    iblk2 V c 6 t (ix2 (0 : Fin 1) q) = V c main_v96 (ix2 (0 : Fin 1) q) := by
  show V c main_v96 (((cfg2.win 6).blk t).view.emb (ix2 (0 : Fin 1) q)) = _
  refine congrArg _ (funext fun a => Fin.ext ?_)
  have hf := idx_facts t
  match a with
  | ⟨0, _⟩ => show win2_6.index t (0 : Fin 2) * 1 + 1 * 0 = 0; rw [hf.2.2.2.2.2.2.2.2.2.2.2.2.1]
  | ⟨1, _⟩ => show win2_6.index t (1 : Fin 2) * 64 + 1 * q.val = q.val; rw [hf.2.2.2.2.2.2.2.2.2.2.2.2.2.1]; omega

theorem blk7 (c : Dev nD) (t : Fin cfg2.N) (q : Fin 64) :
    iblk2 V c 7 t (ix2 (0 : Fin 1) q) = V c main_v97 (ix2 (0 : Fin 1) q) := by
  show V c main_v97 (((cfg2.win 7).blk t).view.emb (ix2 (0 : Fin 1) q)) = _
  refine congrArg _ (funext fun a => Fin.ext ?_)
  have hf := idx_facts t
  match a with
  | ⟨0, _⟩ => show win2_7.index t (0 : Fin 2) * 1 + 1 * 0 = 0; rw [hf.2.2.2.2.2.2.2.2.2.2.2.2.2.2.1]
  | ⟨1, _⟩ => show win2_7.index t (1 : Fin 2) * 64 + 1 * q.val = q.val; rw [hf.2.2.2.2.2.2.2.2.2.2.2.2.2.2.2.1]; omega

theorem blk8 (c : Dev nD) (t : Fin cfg2.N) (q : Fin 64) :
    iblk2 V c 8 t (ix2 (0 : Fin 1) q) = V c main_v98 (ix2 (0 : Fin 1) q) := by
  show V c main_v98 (((cfg2.win 8).blk t).view.emb (ix2 (0 : Fin 1) q)) = _
  refine congrArg _ (funext fun a => Fin.ext ?_)
  have hf := idx_facts t
  match a with
  | ⟨0, _⟩ => show win2_8.index t (0 : Fin 2) * 1 + 1 * 0 = 0; rw [hf.2.2.2.2.2.2.2.2.2.2.2.2.2.2.2.2.1]
  | ⟨1, _⟩ => show win2_8.index t (1 : Fin 2) * 64 + 1 * q.val = q.val; rw [hf.2.2.2.2.2.2.2.2.2.2.2.2.2.2.2.2.2.1]; omega

theorem blk9 (c : Dev nD) (t : Fin cfg2.N) (p : Fin 64) (q : Fin 64) :
    iblk2 V c 9 t (ix2 p q) = V c main_v90 (ix2 p q) := by
  show V c main_v90 (((cfg2.win 9).blk t).view.emb (ix2 p q)) = _
  refine congrArg _ (funext fun a => Fin.ext ?_)
  have hf := idx_facts t
  match a with
  | ⟨0, _⟩ => show win2_9.index t (0 : Fin 2) * 64 + 1 * p.val = p.val; rw [hf.2.2.2.2.2.2.2.2.2.2.2.2.2.2.2.2.2.2.1]; omega
  | ⟨1, _⟩ => show win2_9.index t (1 : Fin 2) * 64 + 1 * q.val = q.val; rw [hf.2.2.2.2.2.2.2.2.2.2.2.2.2.2.2.2.2.2.2.1]; omega

theorem blk10 (c : Dev nD) (t : Fin cfg2.N) (q : Fin 64) :
    iblk2 V c 10 t (ix2 (0 : Fin 1) q) = V c main_v94 (ix2 (0 : Fin 1) q) := by
  show V c main_v94 (((cfg2.win 10).blk t).view.emb (ix2 (0 : Fin 1) q)) = _
  refine congrArg _ (funext fun a => Fin.ext ?_)
  have hf := idx_facts t
  match a with
  | ⟨0, _⟩ => show win2_10.index t (0 : Fin 2) * 1 + 1 * 0 = 0; rw [hf.2.2.2.2.2.2.2.2.2.2.2.2.2.2.2.2.2.2.2.2.1]
  | ⟨1, _⟩ => show win2_10.index t (1 : Fin 2) * 64 + 1 * q.val = q.val; rw [hf.2.2.2.2.2.2.2.2.2.2.2.2.2.2.2.2.2.2.2.2.2.1]; omega

theorem emb11 (t : Fin cfg2.N) (p : Fin 5000) (q : Fin 64) :
    ((cfg2.win 11).blk t).view.emb (ix2 p q) = ix2 (rowOf t p) q := by
  have hf := idx_facts t
  funext a; apply Fin.ext
  match a with
  | ⟨0, _⟩ => show win2_11.index t (0 : Fin 2) * 5000 + 1 * p.val = t.val * 5000 + p.val; rw [hf.2.2.2.2.2.2.2.2.2.2.2.2.2.2.2.2.2.2.2.2.2.2.1]; omega
  | ⟨1, _⟩ => show win2_11.index t (1 : Fin 2) * 64 + 1 * q.val = q.val; rw [hf.2.2.2.2.2.2.2.2.2.2.2.2.2.2.2.2.2.2.2.2.2.2.2.1]; omega

theorem emb12 (t : Fin cfg2.N) (p : Fin 5000) (q : Fin 64) :
    ((cfg2.win 12).blk t).view.emb (ix2 p q) = ix2 (rowOf t p) q := by
  have hf := idx_facts t
  funext a; apply Fin.ext
  match a with
  | ⟨0, _⟩ => show win2_12.index t (0 : Fin 2) * 5000 + 1 * p.val = t.val * 5000 + p.val; rw [hf.2.2.2.2.2.2.2.2.2.2.2.2.2.2.2.2.2.2.2.2.2.2.2.2.1]; omega
  | ⟨1, _⟩ => show win2_12.index t (1 : Fin 2) * 64 + 1 * q.val = q.val; rw [hf.2.2.2.2.2.2.2.2.2.2.2.2.2.2.2.2.2.2.2.2.2.2.2.2.2]; omega

/-- What the layer's first output is as a whole array, of the arrays as the region finds them. -/
def G11 (c : Dev nD) : Gin.Feat := Gin.mlp false (V c main_v78) (V c main_v93) (V c main_v95) (V c main_v96) (V c main_v97) (V c main_v98) (V c main_v90) (V c main_v94) (V c main_v66_0) (V c main_v76)

/-- The second output: the running sum plus the first. -/
def addF (a b : Gin.Feat) : Gin.Feat := fun i => a i + b i
def G12 (c : Dev nD) : Gin.Feat := addF (V c main_v66_1) (G11 V c)

/-- Entry `(p, q)` of the first output block at point `t` is entry `(5000·t + p, q)` of `G11`. -/
theorem out11_at (c : Dev nD) (t : Fin cfg2.N) (p : Fin 5000) (q : Fin 64) :
    out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (ix2 p q) = G11 V c (ix2 (rowOf t p) q) := by
  refine (out11_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p q).trans ?_
  simp only [blk0, blk1, blk3, blk4, blk5, blk6, blk7, blk8, blk9, blk10]
  rfl

/-- The same for the second output block. -/
theorem out12_at (c : Dev nD) (t : Fin cfg2.N) (p : Fin 5000) (q : Fin 64) :
    out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (ix2 p q) = G12 V c (ix2 (rowOf t p) q) := by
  refine (out12_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) p q).trans ?_
  rw [out11_at V c t p q, blk2 V c t p q]
  rfl

/-- WHAT POINT `t` WRITES BACK to the first output is its row block of `G11`. -/
theorem flushed11_eq (c : Dev nD) (t : Fin cfg2.N) :
    (dat2 V c).flushed 11 t = ((cfg2.win 11).blk t).view.read (Elt Ideal) (G11 V c) := by
  show (cfg2.win 11).cut (grid2.coords t) ((dat2 V c).after 11 t) = _
  rw [after2_11]
  have key : ∀ j : S5000x64.Idx, out2_11 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) j = G11 V c (((cfg2.win 11).blk t).view.emb j) := by
    intro j
    obtain ⟨p, q, rfl⟩ : ∃ (p : Fin 5000) (q : Fin 64), j = ix2 p q := ⟨j 0, j 1, eq_ix2 j⟩
    rw [emb11]
    exact out11_at V c t p q
  exact funext key

theorem mem_blk11 (t : Fin cfg2.N) (i : S100000x64.Idx) :
    i ∈ ((cfg2.win 11).blk t).view.set ↔ ∀ a : Fin 2, win2_11.index t a * S5000x64.size a ≤ (i a).val ∧ (i a).val < win2_11.index t a * S5000x64.size a + S5000x64.size a := by
  show i ∈ ((View.whole main_v99_0).slice (win2_11.rect t)).set ↔ _
  rw [View.set_slice_whole, Rect.mem_set_unit]
  exact Iff.rfl

/-- Every row lies in the block of the point `row / 5000`. -/
theorem cover11 (i : S100000x64.Idx) : ∃ t : Fin cfg2.N, (cfg2.win 11).flush t = true ∧ i ∈ ((cfg2.win 11).blk t).view.set := by
  have hi0 : (i 0).val < 100000 := (i 0).isLt
  have hi1 : (i 1).val < 64 := (i 1).isLt
  have hN : grid2.N = 20 := N_2
  have ht : (i 0).val / 5000 < cfg2.N := by show (i 0).val / 5000 < grid2.N; rw [hN]; omega
  have hf := idx_facts ⟨(i 0).val / 5000, ht⟩
  refine ⟨⟨(i 0).val / 5000, ht⟩, flush2_11 _, ?_⟩
  rw [mem_blk11]
  intro a
  match a with
  | ⟨0, _⟩ => show win2_11.index ⟨(i 0).val / 5000, ht⟩ (0 : Fin 2) * 5000 ≤ (i 0).val ∧ (i 0).val < win2_11.index ⟨(i 0).val / 5000, ht⟩ (0 : Fin 2) * 5000 + 5000; rw [hf.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win2_11.index ⟨(i 0).val / 5000, ht⟩ (1 : Fin 2) * 64 ≤ (i 1).val ∧ (i 1).val < win2_11.index ⟨(i 0).val / 5000, ht⟩ (1 : Fin 2) * 64 + 64; rw [hf.2.2.2.2.2.2.2.2.2.2.2.2.2.2.2.2.2.2.2.2.2.2.2.1]; omega

/-- After the region the first output array is the layer's output. -/
theorem final11 (c : Dev nD) : (dat2 V c).arrAt 11 cfg2.N = G11 V c :=
  (dat2 V c).arrAt_eq_of_cover 11 (G11 V c) (fun t _ => flushed11_eq V c t) cover11

/-- WHAT POINT `t` WRITES BACK to the second output is its row block of `G12`. -/
theorem flushed12_eq (c : Dev nD) (t : Fin cfg2.N) :
    (dat2 V c).flushed 12 t = ((cfg2.win 12).blk t).view.read (Elt Ideal) (G12 V c) := by
  show (cfg2.win 12).cut (grid2.coords t) ((dat2 V c).after 12 t) = _
  rw [after2_12]
  have key : ∀ j : S5000x64.Idx, out2_12 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) j = G12 V c (((cfg2.win 12).blk t).view.emb j) := by
    intro j
    obtain ⟨p, q, rfl⟩ : ∃ (p : Fin 5000) (q : Fin 64), j = ix2 p q := ⟨j 0, j 1, eq_ix2 j⟩
    rw [emb12]
    exact out12_at V c t p q
  exact funext key

theorem mem_blk12 (t : Fin cfg2.N) (i : S100000x64.Idx) :
    i ∈ ((cfg2.win 12).blk t).view.set ↔ ∀ a : Fin 2, win2_12.index t a * S5000x64.size a ≤ (i a).val ∧ (i a).val < win2_12.index t a * S5000x64.size a + S5000x64.size a := by
  show i ∈ ((View.whole main_v99_1).slice (win2_12.rect t)).set ↔ _
  rw [View.set_slice_whole, Rect.mem_set_unit]
  exact Iff.rfl

/-- Every row lies in the block of the point `row / 5000`. -/
theorem cover12 (i : S100000x64.Idx) : ∃ t : Fin cfg2.N, (cfg2.win 12).flush t = true ∧ i ∈ ((cfg2.win 12).blk t).view.set := by
  have hi0 : (i 0).val < 100000 := (i 0).isLt
  have hi1 : (i 1).val < 64 := (i 1).isLt
  have hN : grid2.N = 20 := N_2
  have ht : (i 0).val / 5000 < cfg2.N := by show (i 0).val / 5000 < grid2.N; rw [hN]; omega
  have hf := idx_facts ⟨(i 0).val / 5000, ht⟩
  refine ⟨⟨(i 0).val / 5000, ht⟩, flush2_12 _, ?_⟩
  rw [mem_blk12]
  intro a
  match a with
  | ⟨0, _⟩ => show win2_12.index ⟨(i 0).val / 5000, ht⟩ (0 : Fin 2) * 5000 ≤ (i 0).val ∧ (i 0).val < win2_12.index ⟨(i 0).val / 5000, ht⟩ (0 : Fin 2) * 5000 + 5000; rw [hf.2.2.2.2.2.2.2.2.2.2.2.2.2.2.2.2.2.2.2.2.2.2.2.2.1]; show (i 0).val / 5000 * 5000 ≤ (i 0).val ∧ (i 0).val < (i 0).val / 5000 * 5000 + 5000; omega
  | ⟨1, _⟩ => show win2_12.index ⟨(i 0).val / 5000, ht⟩ (1 : Fin 2) * 64 ≤ (i 1).val ∧ (i 1).val < win2_12.index ⟨(i 0).val / 5000, ht⟩ (1 : Fin 2) * 64 + 64; rw [hf.2.2.2.2.2.2.2.2.2.2.2.2.2.2.2.2.2.2.2.2.2.2.2.2.2]; omega

/-- After the region the second output array is the running sum plus the layer's output. -/
theorem final12 (c : Dev nD) : (dat2 V c).arrAt 12 cfg2.N = G12 V c :=
  (dat2 V c).arrAt_eq_of_cover 12 (G12 V c) (fun t _ => flushed12_eq V c t) cover12

end Cert.Gin.K2

end
-- ==== Proof.KArgs.lean ====
/-
  The arguments at the inner boundaries.  No host operation and no region writes an argument's buffer (a region reads one
  through an input window at most), so at the boundary after the first region, and after the second, each argument's
  buffer still holds its launch contents: the fold at that buffer walks back to the launch memory.
-/
import proofs.«109376_j64518998720917_1_alg».proof.Proof.Gen.KernelIdeal.Frame

set_option maxRecDepth 16384

noncomputable section

namespace Cert.Gin.KArgs

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W2_main_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W2_main_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
theorem W2_main_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

end Cert.Gin.KArgs

end
-- ==== Proof.LibStackSlices.lean ====
/-
  General lemmas: one layer's parameters cut out of a stack.

  A stack of `n` matrices `[n, a, b]`, sliced to its `o`-th matrix `[1, a, b]` and reshaped to `[a, b]`, reads at `(i, j)`
  the stack at `(o, i, j)`.  A stack of `n` vectors `[n, a]`, sliced to `[1, a]`, reshaped to `[a]` and back to `[1, a]`,
  reads at `(u, j)` the stack at `(o, j)`.  Both hold for any element type: a slice and a reshape only move indices.
-/
import Idealize.ShloMosaic.Lib.Pipeline.Value
import Idealize.ShloMosaic.Lib.ValueIdx
import Idealize.ShloMosaic.Lib.ValueLayout

namespace Cert.Lib.StackSlices

open Idealize.ShloMosaic Idealize.ShloMosaic.ValueIdx

variable {α : Type}

/-- Matrix `o` of a stack, as an `[a, b]` array, at `(i, j)`. -/
theorem stackSq_apply {n a b : ℕ} (o : ℕ) (W : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (l : Fin n) (hl : l.val = o) (i : Fin a) (j : Fin b) :
    shapeCast ⟨2, ![a, b]⟩ (extractStridedSlice ⟨3, ![1, a, b]⟩ ![o, 0, 0] W hs) hc (ix2 i j) = W (ix3 l i j) := by
  rw [shapeCast_1ab_ab_apply]
  refine extractStridedSlice_apply _ _ _ _ _ (fun ax => ?_)
  match ax with
  | ⟨0, _⟩ => exact hl.trans (Nat.add_zero _).symm
  | ⟨1, _⟩ => exact (Nat.zero_add _).symm
  | ⟨2, _⟩ => exact (Nat.zero_add _).symm

/-- Vector `o` of a stack, as a `[1, a]` row reached through `[a]`, at `(u, j)`. -/
theorem stackRow_apply {n a : ℕ} (o : ℕ) (B : (⟨2, ![n, a]⟩ : Shape).Idx → α)
    (hs : (⟨2, ![n, a]⟩ : Shape).Slices ![o, 0] ⟨2, ![1, a]⟩)
    (h1 : (⟨2, ![1, a]⟩ : Shape).ShapeCasts ⟨1, ![a]⟩) (h2 : (⟨1, ![a]⟩ : Shape).ShapeCasts ⟨2, ![1, a]⟩)
    (l : Fin n) (hl : l.val = o) (u : Fin 1) (j : Fin a) :
    shapeCast ⟨2, ![1, a]⟩ (shapeCast ⟨1, ![a]⟩ (extractStridedSlice ⟨2, ![1, a]⟩ ![o, 0] B hs) h1) h2 (ix2 u j)
      = B (ix2 l j) := by
  rw [shapeCast_a_1a_apply, shapeCast_1a_a_apply]
  exact slice2_axis0_apply o B hs 0 j l (by rw [hl]; rfl)

end Cert.Lib.StackSlices
-- ==== Proof.KFold.lean ====
/-
  The kernel program's value.  Its three regions are the network's three layers: the host operations before each region
  cut that layer's matrices and vectors out of the stacks and aggregate the previous layer's output over the edges; the
  region computes the layer and adds it to the running sum.  Read through the fold of buffer contents from the launch
  memory, the result buffer ends holding the three-layer sum of the specification, with the kernel program's own
  aggregation.
-/
import proofs.«109376_j64518998720917_1_alg».proof.Proof.KBlocks0
import proofs.«109376_j64518998720917_1_alg».proof.Proof.KBlocks1
import proofs.«109376_j64518998720917_1_alg».proof.Proof.KBlocks2
import proofs.«109376_j64518998720917_1_alg».proof.Proof.KArgs
import proofs.«109376_j64518998720917_1_alg».proof.Proof.LibStackSlices
import proofs.«109376_j64518998720917_1_alg».proof.Proof.Gen.KernelIdeal.Frame
import Idealize.ShloMosaic.Lib.StableHlo.Run

set_option maxRecDepth 16384

noncomputable section

namespace Cert.Gin.KFold

open Cert.KernelIdeal Cert.KernelIdeal.Gen Cert.Gin.KArgs Cert.Lib.StackSlices
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The kernel program's neighbour aggregate of a feature array: gather the rows at the (wrapped) source indices, scatter-add
    them into zeros at the destination indices. -/
def agg (src dst : (⟨S1200000, .i32⟩ : BufTy).Contents (Elt Ideal)) (h : Gin.Feat) : Gin.Feat :=
  (Host.scatterAdd (F := Ideal) (φ := .f32) scatter_S100000x64_S1200000x1_S1200000x64_1_0_0_1
      (broadcastInDim S100000x64 ![] bcast_S_S100000x64 (constant (F := Ideal) S_ .f32 0x00000000#32))
      (broadcastInDim S1200000x1 ![0] bcast_S1200000_S1200000x1_0 dst)
      (Host.gather gather_S100000x64_S1200000x1_S1200000x64_1_0_n_n_0_1_164 (h : (⟨S100000x64, .f32⟩ : BufTy).Contents (Elt Ideal))
        (broadcastInDim S1200000x1 ![0] bcast_S1200000_S1200000x1_0
          (select (cmpi .slt src (broadcastInDim S1200000 ![] bcast_S_S1200000 (constantI S_ 32 0#32)))
            (addi src (broadcastInDim S1200000 ![] bcast_S_S1200000 (constantI S_ 32 100000#32))) src)))
    : (⟨S100000x64, .f32⟩ : BufTy).Contents (Elt Ideal))

/-- The three layers' outputs and the running sums, of the launch memory. -/
def h1 (c : Dev nD) : Gin.Feat := Gin.layer true 0 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg0)) (agg (m ((c : Thread nD τ).loc main_arg1)) (m ((c : Thread nD τ).loc main_arg2)) (m ((c : Thread nD τ).loc main_arg0)))
def h2 (c : Dev nD) : Gin.Feat := Gin.layer true 1 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (h1 m c) (agg (m ((c : Thread nD τ).loc main_arg1)) (m ((c : Thread nD τ).loc main_arg2)) (h1 m c))
def h3 (c : Dev nD) : Gin.Feat := Gin.layer false 2 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (h2 m c) (agg (m ((c : Thread nD τ).loc main_arg1)) (m ((c : Thread nD τ).loc main_arg2)) (h2 m c))
def j1 (c : Dev nD) : Gin.Feat := K0.addF Gin.zeros (h1 m c)
def j2 (c : Dev nD) : Gin.Feat := K1.addF (j1 m c) (h2 m c)
def j3 (c : Dev nD) : Gin.Feat := K2.addF (j2 m c) (h3 m c)

theorem W0_main_arg3 (c : Dev nD) : W0 m ρ c (Proc.devRef .tc main_arg3) = (m ((c : Thread nD τ).loc main_arg3)) := rfl
theorem W0_main_arg4 (c : Dev nD) : W0 m ρ c (Proc.devRef .tc main_arg4) = (m ((c : Thread nD τ).loc main_arg4)) := rfl
theorem W0_main_arg5 (c : Dev nD) : W0 m ρ c (Proc.devRef .tc main_arg5) = (m ((c : Thread nD τ).loc main_arg5)) := rfl
theorem W0_main_arg6 (c : Dev nD) : W0 m ρ c (Proc.devRef .tc main_arg6) = (m ((c : Thread nD τ).loc main_arg6)) := rfl
theorem W0_main_arg7 (c : Dev nD) : W0 m ρ c (Proc.devRef .tc main_arg7) = (m ((c : Thread nD τ).loc main_arg7)) := rfl
theorem W0_main_arg8 (c : Dev nD) : W0 m ρ c (Proc.devRef .tc main_arg8) = (m ((c : Thread nD τ).loc main_arg8)) := rfl
theorem W0_main_arg9 (c : Dev nD) : W0 m ρ c (Proc.devRef .tc main_arg9) = (m ((c : Thread nD τ).loc main_arg9)) := rfl
theorem W0_main_arg10 (c : Dev nD) : W0 m ρ c (Proc.devRef .tc main_arg10) = (m ((c : Thread nD τ).loc main_arg10)) := rfl

/-! ## Region 0: the arrays as it finds them -/

set_option maxHeartbeats 4000000 in
theorem s0_W1 (c : Dev nD) : (V1 m ρ c main_v12 : Gin.Sq) = Gin.sq 0 (m ((c : Thread nD τ).loc main_arg3)) := by
  have e : (V1 m ρ c main_v12 : Gin.Sq) = shapeCast S64x64 (extractStridedSlice S1x64x64 ![0, 0, 0] (m ((c : Thread nD τ).loc main_arg3)) slices_S3x64x64_S1x64x64_0_0_0) shapeCasts_S1x64x64_S64x64 := by
    show StableHlo.after hostOps0 (W0 m ρ c) (Proc.devRef .tc main_v12) = _
    after_results_simp
    rw [W0_main_arg3 m ρ c]
    rfl
  rw [e]
  funext j
  obtain ⟨a, b, rfl⟩ : ∃ (a : Fin 64) (b : Fin 64), j = ix2 a b := ⟨j 0, j 1, eq_ix2 j⟩
  exact stackSq_apply 0 _ _ _ 0 rfl a b

set_option maxHeartbeats 4000000 in
theorem s0_b1 (c : Dev nD) : (V1 m ρ c main_v27 : Gin.Row) = Gin.row 0 (m ((c : Thread nD τ).loc main_arg4)) := by
  have e : (V1 m ρ c main_v27 : Gin.Row) = shapeCast S1x64 (shapeCast S64 (extractStridedSlice S1x64 ![0, 0] (m ((c : Thread nD τ).loc main_arg4)) slices_S3x64_S1x64_0_0) shapeCasts_S1x64_S64) shapeCasts_S64_S1x64 := by
    show StableHlo.after hostOps0 (W0 m ρ c) (Proc.devRef .tc main_v27) = _
    after_results_simp
    rw [W0_main_arg4 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
theorem s0_g (c : Dev nD) : (V1 m ρ c main_v29 : Gin.Row) = Gin.row 0 (m ((c : Thread nD τ).loc main_arg5)) := by
  have e : (V1 m ρ c main_v29 : Gin.Row) = shapeCast S1x64 (shapeCast S64 (extractStridedSlice S1x64 ![0, 0] (m ((c : Thread nD τ).loc main_arg5)) slices_S3x64_S1x64_0_0) shapeCasts_S1x64_S64) shapeCasts_S64_S1x64 := by
    show StableHlo.after hostOps0 (W0 m ρ c) (Proc.devRef .tc main_v29) = _
    after_results_simp
    rw [W0_main_arg5 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
theorem s0_be (c : Dev nD) : (V1 m ρ c main_v30 : Gin.Row) = Gin.row 0 (m ((c : Thread nD τ).loc main_arg6)) := by
  have e : (V1 m ρ c main_v30 : Gin.Row) = shapeCast S1x64 (shapeCast S64 (extractStridedSlice S1x64 ![0, 0] (m ((c : Thread nD τ).loc main_arg6)) slices_S3x64_S1x64_0_0) shapeCasts_S1x64_S64) shapeCasts_S64_S1x64 := by
    show StableHlo.after hostOps0 (W0 m ρ c) (Proc.devRef .tc main_v30) = _
    after_results_simp
    rw [W0_main_arg6 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
theorem s0_mu (c : Dev nD) : (V1 m ρ c main_v31 : Gin.Row) = Gin.row 0 (m ((c : Thread nD τ).loc main_arg7)) := by
  have e : (V1 m ρ c main_v31 : Gin.Row) = shapeCast S1x64 (shapeCast S64 (extractStridedSlice S1x64 ![0, 0] (m ((c : Thread nD τ).loc main_arg7)) slices_S3x64_S1x64_0_0) shapeCasts_S1x64_S64) shapeCasts_S64_S1x64 := by
    show StableHlo.after hostOps0 (W0 m ρ c) (Proc.devRef .tc main_v31) = _
    after_results_simp
    rw [W0_main_arg7 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
theorem s0_va (c : Dev nD) : (V1 m ρ c main_v32 : Gin.Row) = Gin.row 0 (m ((c : Thread nD τ).loc main_arg8)) := by
  have e : (V1 m ρ c main_v32 : Gin.Row) = shapeCast S1x64 (shapeCast S64 (extractStridedSlice S1x64 ![0, 0] (m ((c : Thread nD τ).loc main_arg8)) slices_S3x64_S1x64_0_0) shapeCasts_S1x64_S64) shapeCasts_S64_S1x64 := by
    show StableHlo.after hostOps0 (W0 m ρ c) (Proc.devRef .tc main_v32) = _
    after_results_simp
    rw [W0_main_arg8 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
theorem s0_W2 (c : Dev nD) : (V1 m ρ c main_v24 : Gin.Sq) = Gin.sq 0 (m ((c : Thread nD τ).loc main_arg9)) := by
  have e : (V1 m ρ c main_v24 : Gin.Sq) = shapeCast S64x64 (extractStridedSlice S1x64x64 ![0, 0, 0] (m ((c : Thread nD τ).loc main_arg9)) slices_S3x64x64_S1x64x64_0_0_0) shapeCasts_S1x64x64_S64x64 := by
    show StableHlo.after hostOps0 (W0 m ρ c) (Proc.devRef .tc main_v24) = _
    after_results_simp
    rw [W0_main_arg9 m ρ c]
    rfl
  rw [e]
  funext j
  obtain ⟨a, b, rfl⟩ : ∃ (a : Fin 64) (b : Fin 64), j = ix2 a b := ⟨j 0, j 1, eq_ix2 j⟩
  exact stackSq_apply 0 _ _ _ 0 rfl a b

set_option maxHeartbeats 4000000 in
theorem s0_b2 (c : Dev nD) : (V1 m ρ c main_v28 : Gin.Row) = Gin.row 0 (m ((c : Thread nD τ).loc main_arg10)) := by
  have e : (V1 m ρ c main_v28 : Gin.Row) = shapeCast S1x64 (shapeCast S64 (extractStridedSlice S1x64 ![0, 0] (m ((c : Thread nD τ).loc main_arg10)) slices_S3x64_S1x64_0_0) shapeCasts_S1x64_S64) shapeCasts_S64_S1x64 := by
    show StableHlo.after hostOps0 (W0 m ρ c) (Proc.devRef .tc main_v28) = _
    after_results_simp
    rw [W0_main_arg10 m ρ c]
    rfl
  rw [e]
  funext j
  obtain ⟨u, b, rfl⟩ : ∃ (u : Fin 1) (b : Fin 64), j = ix2 u b := ⟨j 0, j 1, eq_ix2 j⟩
  exact stackRow_apply 0 _ _ _ _ 0 rfl u b

set_option maxHeartbeats 4000000 in
/-- The features the first region reads are the argument. -/
theorem s0_h (c : Dev nD) : (V1 m ρ c main_arg0 : Gin.Feat) = (m ((c : Thread nD τ).loc main_arg0)) := by
  show StableHlo.after hostOps0 (W0 m ρ c) (Proc.devRef .tc main_arg0) = _
  after_results_simp

set_option maxHeartbeats 4000000 in
/-- The running sum the first region reads is the array of zeros. -/
theorem s0_jk (c : Dev nD) : (V1 m ρ c main_v0 : Gin.Feat) = Gin.zeros := by
  have e : (V1 m ρ c main_v0 : Gin.Feat) = broadcastInDim S100000x64 ![] bcast_S_S100000x64 (constant (F := Ideal) S_ .f32 0x00000000#32) := by
    show StableHlo.after hostOps0 (W0 m ρ c) (Proc.devRef .tc main_v0) = _
    after_results_simp
  rw [e]
  funext i
  exact (broadcastInDim_apply _ bcast_S_S100000x64 _ i (fun a => a.elim0) (fun a => a.elim0)).trans rfl

set_option maxHeartbeats 4000000 in
/-- Its aggregate operand is the aggregate of the argument. -/
theorem s0_ag (c : Dev nD) : (V1 m ρ c main_v10 : Gin.Feat) = agg (m ((c : Thread nD τ).loc main_arg1)) (m ((c : Thread nD τ).loc main_arg2)) (m ((c : Thread nD τ).loc main_arg0)) := by
  show StableHlo.after hostOps0 (W0 m ρ c) (Proc.devRef .tc main_v10) = _
  after_results_simp
  rfl

/-- Region 0's first output is layer 1 of the network; its second adds it to the running sum. -/
theorem H1_eq (c : Dev nD) : K0.G11 (V1 m ρ) c = h1 m c := by
  unfold K0.G11 h1 Gin.layer
  rw [s0_W1 m ρ c, s0_b1 m ρ c, s0_g m ρ c, s0_be m ρ c, s0_mu m ρ c, s0_va m ρ c, s0_W2 m ρ c, s0_b2 m ρ c, s0_h m ρ c, s0_ag m ρ c]
theorem J1_eq (c : Dev nD) : K0.G12 (V1 m ρ) c = j1 m c := by
  unfold K0.G12 j1
  rw [s0_jk m ρ c, H1_eq m ρ c]

/-! ## Region 1: the arrays as it finds them -/

set_option maxHeartbeats 4000000 in
theorem s1_W1 (c : Dev nD) : (V3 m ρ c main_v45 : Gin.Sq) = Gin.sq 1 (m ((c : Thread nD τ).loc main_arg3)) := by
  have e : (V3 m ρ c main_v45 : Gin.Sq) = shapeCast S64x64 (extractStridedSlice S1x64x64 ![1, 0, 0] (m ((c : Thread nD τ).loc main_arg3)) slices_S3x64x64_S1x64x64_1_0_0) shapeCasts_S1x64x64_S64x64 := by
    show StableHlo.after hostOps1 (W2 m ρ c) (Proc.devRef .tc main_v45) = _
    after_results_simp
    rw [W2_main_arg3 m ρ c]
    rfl
  rw [e]
  funext j
  obtain ⟨a, b, rfl⟩ : ∃ (a : Fin 64) (b : Fin 64), j = ix2 a b := ⟨j 0, j 1, eq_ix2 j⟩
  exact stackSq_apply 1 _ _ _ 1 rfl a b

set_option maxHeartbeats 4000000 in
theorem s1_b1 (c : Dev nD) : (V3 m ρ c main_v60 : Gin.Row) = Gin.row 1 (m ((c : Thread nD τ).loc main_arg4)) := by
  have e : (V3 m ρ c main_v60 : Gin.Row) = shapeCast S1x64 (shapeCast S64 (extractStridedSlice S1x64 ![1, 0] (m ((c : Thread nD τ).loc main_arg4)) slices_S3x64_S1x64_1_0) shapeCasts_S1x64_S64) shapeCasts_S64_S1x64 := by
    show StableHlo.after hostOps1 (W2 m ρ c) (Proc.devRef .tc main_v60) = _
    after_results_simp
    rw [W2_main_arg4 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

set_option maxHeartbeats 4000000 in
theorem s1_g (c : Dev nD) : (V3 m ρ c main_v62 : Gin.Row) = Gin.row 1 (m ((c : Thread nD τ).loc main_arg5)) := by
  have e : (V3 m ρ c main_v62 : Gin.Row) = shapeCast S1x64 (shapeCast S64 (extractStridedSlice S1x64 ![1, 0] (m ((c : Thread nD τ).loc main_arg5)) slices_S3x64_S1x64_1_0) shapeCasts_S1x64_S64) shapeCasts_S64_S1x64 := by
    show StableHlo.after hostOps1 (W2 m ρ c) (Proc.devRef .tc main_v62) = _
    after_results_simp
    rw [W2_main_arg5 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

set_option maxHeartbeats 4000000 in
theorem s1_be (c : Dev nD) : (V3 m ρ c main_v63 : Gin.Row) = Gin.row 1 (m ((c : Thread nD τ).loc main_arg6)) := by
  have e : (V3 m ρ c main_v63 : Gin.Row) = shapeCast S1x64 (shapeCast S64 (extractStridedSlice S1x64 ![1, 0] (m ((c : Thread nD τ).loc main_arg6)) slices_S3x64_S1x64_1_0) shapeCasts_S1x64_S64) shapeCasts_S64_S1x64 := by
    show StableHlo.after hostOps1 (W2 m ρ c) (Proc.devRef .tc main_v63) = _
    after_results_simp
    rw [W2_main_arg6 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

set_option maxHeartbeats 4000000 in
theorem s1_mu (c : Dev nD) : (V3 m ρ c main_v64 : Gin.Row) = Gin.row 1 (m ((c : Thread nD τ).loc main_arg7)) := by
  have e : (V3 m ρ c main_v64 : Gin.Row) = shapeCast S1x64 (shapeCast S64 (extractStridedSlice S1x64 ![1, 0] (m ((c : Thread nD τ).loc main_arg7)) slices_S3x64_S1x64_1_0) shapeCasts_S1x64_S64) shapeCasts_S64_S1x64 := by
    show StableHlo.after hostOps1 (W2 m ρ c) (Proc.devRef .tc main_v64) = _
    after_results_simp
    rw [W2_main_arg7 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

set_option maxHeartbeats 4000000 in
theorem s1_va (c : Dev nD) : (V3 m ρ c main_v65 : Gin.Row) = Gin.row 1 (m ((c : Thread nD τ).loc main_arg8)) := by
  have e : (V3 m ρ c main_v65 : Gin.Row) = shapeCast S1x64 (shapeCast S64 (extractStridedSlice S1x64 ![1, 0] (m ((c : Thread nD τ).loc main_arg8)) slices_S3x64_S1x64_1_0) shapeCasts_S1x64_S64) shapeCasts_S64_S1x64 := by
    show StableHlo.after hostOps1 (W2 m ρ c) (Proc.devRef .tc main_v65) = _
    after_results_simp
    rw [W2_main_arg8 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

set_option maxHeartbeats 4000000 in
theorem s1_W2 (c : Dev nD) : (V3 m ρ c main_v57 : Gin.Sq) = Gin.sq 1 (m ((c : Thread nD τ).loc main_arg9)) := by
  have e : (V3 m ρ c main_v57 : Gin.Sq) = shapeCast S64x64 (extractStridedSlice S1x64x64 ![1, 0, 0] (m ((c : Thread nD τ).loc main_arg9)) slices_S3x64x64_S1x64x64_1_0_0) shapeCasts_S1x64x64_S64x64 := by
    show StableHlo.after hostOps1 (W2 m ρ c) (Proc.devRef .tc main_v57) = _
    after_results_simp
    rw [W2_main_arg9 m ρ c]
    rfl
  rw [e]
  funext j
  obtain ⟨a, b, rfl⟩ : ∃ (a : Fin 64) (b : Fin 64), j = ix2 a b := ⟨j 0, j 1, eq_ix2 j⟩
  exact stackSq_apply 1 _ _ _ 1 rfl a b

set_option maxHeartbeats 4000000 in
theorem s1_b2 (c : Dev nD) : (V3 m ρ c main_v61 : Gin.Row) = Gin.row 1 (m ((c : Thread nD τ).loc main_arg10)) := by
  have e : (V3 m ρ c main_v61 : Gin.Row) = shapeCast S1x64 (shapeCast S64 (extractStridedSlice S1x64 ![1, 0] (m ((c : Thread nD τ).loc main_arg10)) slices_S3x64_S1x64_1_0) shapeCasts_S1x64_S64) shapeCasts_S64_S1x64 := by
    show StableHlo.after hostOps1 (W2 m ρ c) (Proc.devRef .tc main_v61) = _
    after_results_simp
    rw [W2_main_arg10 m ρ c]
    rfl
  rw [e]
  funext j
  obtain ⟨u, b, rfl⟩ : ∃ (u : Fin 1) (b : Fin 64), j = ix2 u b := ⟨j 0, j 1, eq_ix2 j⟩
  exact stackRow_apply 1 _ _ _ _ 1 rfl u b

/-- After region 0 its first output array is layer 1's output, its second the running sum. -/
theorem b1_h (c : Dev nD) : (W2 m ρ c (Proc.devRef .tc main_v33_0) : Gin.Feat) = h1 m c :=
  ((W2_arr m ρ c 11).trans (K0.final11 (V1 m ρ) c)).trans (H1_eq m ρ c)
theorem b1_jk (c : Dev nD) : (W2 m ρ c (Proc.devRef .tc main_v33_1) : Gin.Feat) = j1 m c :=
  ((W2_arr m ρ c 12).trans (K0.final12 (V1 m ρ) c)).trans (J1_eq m ρ c)

set_option maxHeartbeats 4000000 in
theorem s1_h (c : Dev nD) : (V3 m ρ c main_v33_0 : Gin.Feat) = h1 m c := by
  have e : (V3 m ρ c main_v33_0 : Gin.Feat) = W2 m ρ c (Proc.devRef .tc main_v33_0) := by
    show StableHlo.after hostOps1 (W2 m ρ c) (Proc.devRef .tc main_v33_0) = _
    after_results_simp
  exact e.trans (b1_h m ρ c)

set_option maxHeartbeats 4000000 in
theorem s1_jk (c : Dev nD) : (V3 m ρ c main_v33_1 : Gin.Feat) = j1 m c := by
  have e : (V3 m ρ c main_v33_1 : Gin.Feat) = W2 m ρ c (Proc.devRef .tc main_v33_1) := by
    show StableHlo.after hostOps1 (W2 m ρ c) (Proc.devRef .tc main_v33_1) = _
    after_results_simp
  exact e.trans (b1_jk m ρ c)

set_option maxHeartbeats 4000000 in
theorem s1_ag (c : Dev nD) : (V3 m ρ c main_v43 : Gin.Feat) = agg (m ((c : Thread nD τ).loc main_arg1)) (m ((c : Thread nD τ).loc main_arg2)) (h1 m c) := by
  show StableHlo.after hostOps1 (W2 m ρ c) (Proc.devRef .tc main_v43) = _
  after_results_simp
  rw [W2_main_arg1 m ρ c, W2_main_arg2 m ρ c, b1_h m ρ c]
  rfl

/-- Region 1's first output is layer 2 of the network; its second adds it to the running sum. -/
theorem H2_eq (c : Dev nD) : K1.G11 (V3 m ρ) c = h2 m c := by
  unfold K1.G11 h2 Gin.layer
  rw [s1_W1 m ρ c, s1_b1 m ρ c, s1_g m ρ c, s1_be m ρ c, s1_mu m ρ c, s1_va m ρ c, s1_W2 m ρ c, s1_b2 m ρ c, s1_h m ρ c, s1_ag m ρ c]
theorem J2_eq (c : Dev nD) : K1.G12 (V3 m ρ) c = j2 m c := by
  unfold K1.G12 j2
  rw [s1_jk m ρ c, H2_eq m ρ c]

/-! ## Region 2: the arrays as it finds them -/

set_option maxHeartbeats 4000000 in
theorem s2_W1 (c : Dev nD) : (V5 m ρ c main_v78 : Gin.Sq) = Gin.sq 2 (m ((c : Thread nD τ).loc main_arg3)) := by
  have e : (V5 m ρ c main_v78 : Gin.Sq) = shapeCast S64x64 (extractStridedSlice S1x64x64 ![2, 0, 0] (m ((c : Thread nD τ).loc main_arg3)) slices_S3x64x64_S1x64x64_2_0_0) shapeCasts_S1x64x64_S64x64 := by
    show StableHlo.after hostOps2 (W4 m ρ c) (Proc.devRef .tc main_v78) = _
    after_results_simp
    rw [W4_main_arg3 m ρ c]
    rfl
  rw [e]
  funext j
  obtain ⟨a, b, rfl⟩ : ∃ (a : Fin 64) (b : Fin 64), j = ix2 a b := ⟨j 0, j 1, eq_ix2 j⟩
  exact stackSq_apply 2 _ _ _ 2 rfl a b

set_option maxHeartbeats 4000000 in
theorem s2_b1 (c : Dev nD) : (V5 m ρ c main_v93 : Gin.Row) = Gin.row 2 (m ((c : Thread nD τ).loc main_arg4)) := by
  have e : (V5 m ρ c main_v93 : Gin.Row) = shapeCast S1x64 (shapeCast S64 (extractStridedSlice S1x64 ![2, 0] (m ((c : Thread nD τ).loc main_arg4)) slices_S3x64_S1x64_2_0) shapeCasts_S1x64_S64) shapeCasts_S64_S1x64 := by
    show StableHlo.after hostOps2 (W4 m ρ c) (Proc.devRef .tc main_v93) = _
    after_results_simp
    rw [W4_main_arg4 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

set_option maxHeartbeats 4000000 in
theorem s2_g (c : Dev nD) : (V5 m ρ c main_v95 : Gin.Row) = Gin.row 2 (m ((c : Thread nD τ).loc main_arg5)) := by
  have e : (V5 m ρ c main_v95 : Gin.Row) = shapeCast S1x64 (shapeCast S64 (extractStridedSlice S1x64 ![2, 0] (m ((c : Thread nD τ).loc main_arg5)) slices_S3x64_S1x64_2_0) shapeCasts_S1x64_S64) shapeCasts_S64_S1x64 := by
    show StableHlo.after hostOps2 (W4 m ρ c) (Proc.devRef .tc main_v95) = _
    after_results_simp
    rw [W4_main_arg5 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

set_option maxHeartbeats 4000000 in
theorem s2_be (c : Dev nD) : (V5 m ρ c main_v96 : Gin.Row) = Gin.row 2 (m ((c : Thread nD τ).loc main_arg6)) := by
  have e : (V5 m ρ c main_v96 : Gin.Row) = shapeCast S1x64 (shapeCast S64 (extractStridedSlice S1x64 ![2, 0] (m ((c : Thread nD τ).loc main_arg6)) slices_S3x64_S1x64_2_0) shapeCasts_S1x64_S64) shapeCasts_S64_S1x64 := by
    show StableHlo.after hostOps2 (W4 m ρ c) (Proc.devRef .tc main_v96) = _
    after_results_simp
    rw [W4_main_arg6 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

set_option maxHeartbeats 4000000 in
theorem s2_mu (c : Dev nD) : (V5 m ρ c main_v97 : Gin.Row) = Gin.row 2 (m ((c : Thread nD τ).loc main_arg7)) := by
  have e : (V5 m ρ c main_v97 : Gin.Row) = shapeCast S1x64 (shapeCast S64 (extractStridedSlice S1x64 ![2, 0] (m ((c : Thread nD τ).loc main_arg7)) slices_S3x64_S1x64_2_0) shapeCasts_S1x64_S64) shapeCasts_S64_S1x64 := by
    show StableHlo.after hostOps2 (W4 m ρ c) (Proc.devRef .tc main_v97) = _
    after_results_simp
    rw [W4_main_arg7 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

set_option maxHeartbeats 4000000 in
theorem s2_va (c : Dev nD) : (V5 m ρ c main_v98 : Gin.Row) = Gin.row 2 (m ((c : Thread nD τ).loc main_arg8)) := by
  have e : (V5 m ρ c main_v98 : Gin.Row) = shapeCast S1x64 (shapeCast S64 (extractStridedSlice S1x64 ![2, 0] (m ((c : Thread nD τ).loc main_arg8)) slices_S3x64_S1x64_2_0) shapeCasts_S1x64_S64) shapeCasts_S64_S1x64 := by
    show StableHlo.after hostOps2 (W4 m ρ c) (Proc.devRef .tc main_v98) = _
    after_results_simp
    rw [W4_main_arg8 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

set_option maxHeartbeats 4000000 in
theorem s2_W2 (c : Dev nD) : (V5 m ρ c main_v90 : Gin.Sq) = Gin.sq 2 (m ((c : Thread nD τ).loc main_arg9)) := by
  have e : (V5 m ρ c main_v90 : Gin.Sq) = shapeCast S64x64 (extractStridedSlice S1x64x64 ![2, 0, 0] (m ((c : Thread nD τ).loc main_arg9)) slices_S3x64x64_S1x64x64_2_0_0) shapeCasts_S1x64x64_S64x64 := by
    show StableHlo.after hostOps2 (W4 m ρ c) (Proc.devRef .tc main_v90) = _
    after_results_simp
    rw [W4_main_arg9 m ρ c]
    rfl
  rw [e]
  funext j
  obtain ⟨a, b, rfl⟩ : ∃ (a : Fin 64) (b : Fin 64), j = ix2 a b := ⟨j 0, j 1, eq_ix2 j⟩
  exact stackSq_apply 2 _ _ _ 2 rfl a b

set_option maxHeartbeats 4000000 in
theorem s2_b2 (c : Dev nD) : (V5 m ρ c main_v94 : Gin.Row) = Gin.row 2 (m ((c : Thread nD τ).loc main_arg10)) := by
  have e : (V5 m ρ c main_v94 : Gin.Row) = shapeCast S1x64 (shapeCast S64 (extractStridedSlice S1x64 ![2, 0] (m ((c : Thread nD τ).loc main_arg10)) slices_S3x64_S1x64_2_0) shapeCasts_S1x64_S64) shapeCasts_S64_S1x64 := by
    show StableHlo.after hostOps2 (W4 m ρ c) (Proc.devRef .tc main_v94) = _
    after_results_simp
    rw [W4_main_arg10 m ρ c]
    rfl
  rw [e]
  funext j
  obtain ⟨u, b, rfl⟩ : ∃ (u : Fin 1) (b : Fin 64), j = ix2 u b := ⟨j 0, j 1, eq_ix2 j⟩
  exact stackRow_apply 2 _ _ _ _ 2 rfl u b

/-- After region 1 its first output array is layer 2's output, its second the running sum. -/
theorem b2_h (c : Dev nD) : (W4 m ρ c (Proc.devRef .tc main_v66_0) : Gin.Feat) = h2 m c :=
  ((W4_arr m ρ c 11).trans (K1.final11 (V3 m ρ) c)).trans (H2_eq m ρ c)
theorem b2_jk (c : Dev nD) : (W4 m ρ c (Proc.devRef .tc main_v66_1) : Gin.Feat) = j2 m c :=
  ((W4_arr m ρ c 12).trans (K1.final12 (V3 m ρ) c)).trans (J2_eq m ρ c)

set_option maxHeartbeats 4000000 in
theorem s2_h (c : Dev nD) : (V5 m ρ c main_v66_0 : Gin.Feat) = h2 m c := by
  have e : (V5 m ρ c main_v66_0 : Gin.Feat) = W4 m ρ c (Proc.devRef .tc main_v66_0) := by
    show StableHlo.after hostOps2 (W4 m ρ c) (Proc.devRef .tc main_v66_0) = _
    after_results_simp
  exact e.trans (b2_h m ρ c)

set_option maxHeartbeats 4000000 in
theorem s2_jk (c : Dev nD) : (V5 m ρ c main_v66_1 : Gin.Feat) = j2 m c := by
  have e : (V5 m ρ c main_v66_1 : Gin.Feat) = W4 m ρ c (Proc.devRef .tc main_v66_1) := by
    show StableHlo.after hostOps2 (W4 m ρ c) (Proc.devRef .tc main_v66_1) = _
    after_results_simp
  exact e.trans (b2_jk m ρ c)

set_option maxHeartbeats 4000000 in
theorem s2_ag (c : Dev nD) : (V5 m ρ c main_v76 : Gin.Feat) = agg (m ((c : Thread nD τ).loc main_arg1)) (m ((c : Thread nD τ).loc main_arg2)) (h2 m c) := by
  show StableHlo.after hostOps2 (W4 m ρ c) (Proc.devRef .tc main_v76) = _
  after_results_simp
  rw [W4_main_arg1 m ρ c, W4_main_arg2 m ρ c, b2_h m ρ c]
  rfl

/-- Region 2's first output is layer 3 of the network; its second adds it to the running sum. -/
theorem H3_eq (c : Dev nD) : K2.G11 (V5 m ρ) c = h3 m c := by
  unfold K2.G11 h3 Gin.layer
  rw [s2_W1 m ρ c, s2_b1 m ρ c, s2_g m ρ c, s2_be m ρ c, s2_mu m ρ c, s2_va m ρ c, s2_W2 m ρ c, s2_b2 m ρ c, s2_h m ρ c, s2_ag m ρ c]
theorem J3_eq (c : Dev nD) : K2.G12 (V5 m ρ) c = j3 m c := by
  unfold K2.G12 j3
  rw [s2_jk m ρ c, H3_eq m ρ c]

/-- THE KERNEL PROGRAM'S VALUE: the result buffer at the last boundary is the specification's network of the arguments. -/
theorem kernel_value (c : Dev nD) :
    (W6 m ρ c (Proc.devRef .tc main_v99_1) : Gin.Feat)
      = Gin.result (agg (m ((c : Thread nD τ).loc main_arg1)) (m ((c : Thread nD τ).loc main_arg2))) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W6_arr m ρ c 12).trans (K2.final12 (V5 m ρ) c)).trans ((J3_eq m ρ c).trans rfl)

end Cert.Gin.KFold

end
-- ==== Proof.RefStages.lean ====
/-
  The reference program, stage by stage, is the specification.

  The generated module of per-operation values gives each host operation's value as a function of the program's
  arguments, and reads it at an index.  Here those readings are chained: each of the three layers' parameter stages
  (slice of a stack, reshape, broadcast over the rows) reads the stacked parameter at (layer, column); the two matrix
  products are sums over the 64 hidden indices; the scalar operations at the ideal instance are the real-number
  operations themselves.  The gather and scatter stages stay opaque: their composite is the aggregate `agg`, the same
  term in all three layers, applied to the layer's input array.
-/
import proofs.«109376_j64518998720917_1_alg».proof.Proof.Gen.ReferenceIdeal.Read
import proofs.«109376_j64518998720917_1_alg».proof.Proof.Spec

noncomputable section

namespace Cert.Gin.Ref

open Cert.ReferenceIdeal Cert.ReferenceIdeal.Gen
open Idealize.ShloMosaic Idealize.ShloMosaic.TcCoe Idealize.SL.Sem Idealize.ShloMosaic.StableHlo Idealize.ShloMosaic.ValueIdx

/-- The reference's neighbour aggregate of a feature array `h`: gather the rows of `h` at the source nodes (negative
    indices wrapped), then add each gathered row into the row of its destination node, starting from zeros. -/
def agg (x1 x2 : (⟨Cert.ReferenceIdeal.S1200000, .i32⟩ : BufTy).Contents (Elt Ideal)) (h : Cert.Gin.Feat) : Cert.Gin.Feat :=
  (Host.scatterAdd (F := Ideal) (φ := .f32) Cert.ReferenceIdeal.scatter_S100000x64_S1200000x1_S1200000x64_1_0_0_1
    (Read.val_main_v8 (F := Ideal)) (Read.val_main_v9 (F := Ideal) x2)
    (Host.gather Cert.ReferenceIdeal.gather_S100000x64_S1200000x1_S1200000x64_1_0_n_n_0_1_164
      (h : (⟨Cert.ReferenceIdeal.S100000x64, .f32⟩ : BufTy).Contents (Elt Ideal)) (Read.val_main_v6 (F := Ideal) x1))
    : (⟨Cert.ReferenceIdeal.S100000x64, .f32⟩ : BufTy).Contents (Elt Ideal))

/-- The three aggregate stages are `agg` of the layer's input: the later layers' zero array and index arrays are the same
    terms as the first layer's under other names. -/
theorem agg_1 (x0 : (⟨S100000x64, .f32⟩ : BufTy).Contents (Elt Ideal)) (x1 : (⟨S1200000, .i32⟩ : BufTy).Contents (Elt Ideal)) (x2 : (⟨S1200000, .i32⟩ : BufTy).Contents (Elt Ideal)) : Read.val_main_v10 (F := Ideal) x0 x1 x2 = agg x1 x2 x0 := rfl
theorem agg_2 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v63 (F := Ideal) x0 x1 x2 x3 x4 x5 x6 x7 x8 x9 x10 = agg x1 x2 (Read.val_main_v52 (F := Ideal) x0 x1 x2 x3 x4 x5 x6 x7 x8 x9 x10) := rfl
theorem agg_3 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v116 (F := Ideal) x0 x1 x2 x3 x4 x5 x6 x7 x8 x9 x10 = agg x1 x2 (Read.val_main_v105 (F := Ideal) x0 x1 x2 x3 x4 x5 x6 x7 x8 x9 x10) := rfl

/-- Row `r` of layer `l`'s hidden activations from the stacked parameters: the specification's hidden units of the summed
    input row `h(r,·) + a(r,·)`. -/
def hrow (l : Fin 3) (W1 : Cert.Gin.Sq3) (b1 γ β μ v : Cert.Gin.Row3) (h a : Cert.Gin.Feat) (r : Fin 100000) : Fin 64 → EReal :=
  Cert.Gin.hidden (fun k' k => Cert.Gin.sq l W1 (ix2 k' k)) (fun k => Cert.Gin.row l b1 (ix2 0 k))
    (fun k => Cert.Gin.row l γ (ix2 0 k)) (fun k => Cert.Gin.row l β (ix2 0 k)) (fun k => Cert.Gin.row l μ (ix2 0 k))
    (fun k => Cert.Gin.row l v (ix2 0 k)) (fun k' => h (ix2 r k') + a (ix2 r k'))

/-! ### The first layer -/

/-- The first layer's first weight matrix: the slice of the stack, read as a 64 × 64 array. -/
theorem w1_1 (x3 : (⟨S3x64x64, .f32⟩ : BufTy).Contents (Elt Ideal)) (m : S64x64.Idx) :
    Read.val_main_v13 (F := Ideal) x3 m = x3 (ix3 (0 : Fin 3) (m 0) (m 1)) := by
  rw [Read.val_main_v13_apply, Read.val_main_v12_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The first layer's first bias, broadcast over the rows. -/
theorem b1_1 (x4 : (⟨S3x64, .f32⟩ : BufTy).Contents (Elt Ideal)) (j : S100000x64.Idx) :
    Read.val_main_v18 (F := Ideal) x4 j = x4 (ix2 (0 : Fin 3) (j 1)) := by
  rw [Read.val_main_v18_apply, Read.val_main_v17_apply, Read.val_main_v16_apply, Read.val_main_v15_apply]
  refine congrArg _ (funext fun a => Fin.ext ?_)
  match a with
  | ⟨0, _⟩ => rfl
  | ⟨1, _⟩ => exact Nat.mod_eq_of_lt (idx2_lt1 j)

/-- The first layer's scale, broadcast over the rows. -/
theorem gamma_1 (x5 : (⟨S3x64, .f32⟩ : BufTy).Contents (Elt Ideal)) (j : S100000x64.Idx) :
    Read.val_main_v28 (F := Ideal) x5 j = x5 (ix2 (0 : Fin 3) (j 1)) := by
  rw [Read.val_main_v28_apply, Read.val_main_v27_apply, Read.val_main_v21_apply, Read.val_main_v20_apply]
  refine congrArg _ (funext fun a => Fin.ext ?_)
  match a with
  | ⟨0, _⟩ => rfl
  | ⟨1, _⟩ => exact Nat.mod_eq_of_lt (idx2_lt1 j)

/-- The first layer's running mean, broadcast over the rows. -/
theorem mu_1 (x7 : (⟨S3x64, .f32⟩ : BufTy).Contents (Elt Ideal)) (j : S100000x64.Idx) :
    Read.val_main_v25 (F := Ideal) x7 j = x7 (ix2 (0 : Fin 3) (j 1)) := by
  rw [Read.val_main_v25_apply, Read.val_main_v24_apply, Read.val_main_v23_apply, Read.val_main_v22_apply]
  refine congrArg _ (funext fun a => Fin.ext ?_)
  match a with
  | ⟨0, _⟩ => rfl
  | ⟨1, _⟩ => exact Nat.mod_eq_of_lt (idx2_lt1 j)

/-- The first layer's shift, broadcast over the rows. -/
theorem beta_1 (x6 : (⟨S3x64, .f32⟩ : BufTy).Contents (Elt Ideal)) (j : S100000x64.Idx) :
    Read.val_main_v41 (F := Ideal) x6 j = x6 (ix2 (0 : Fin 3) (j 1)) := by
  rw [Read.val_main_v41_apply, Read.val_main_v40_apply, Read.val_main_v39_apply, Read.val_main_v38_apply]
  refine congrArg _ (funext fun a => Fin.ext ?_)
  match a with
  | ⟨0, _⟩ => rfl
  | ⟨1, _⟩ => exact Nat.mod_eq_of_lt (idx2_lt1 j)

/-- The first layer's reciprocal standard deviation `rsqrt (v + ε)`, computed on the 64 entries and broadcast over the rows. -/
theorem rstd_1 (x8 : (⟨S3x64, .f32⟩ : BufTy).Contents (Elt Ideal)) (j : S100000x64.Idx) :
    Read.val_main_v36 (F := Ideal) x8 j = Ideal.rsqrt (x8 (ix2 (0 : Fin 3) (j 1)) + Cert.Gin.eps) := by
  rw [Read.val_main_v36_apply, Read.val_main_v35_apply, Read.val_main_v34_apply, Read.val_main_v33_apply, Read.val_main_v32_apply, Read.val_main_cst_2_apply, Read.val_main_v31_apply, Read.val_main_v30_apply]
  refine congrArg (fun t => Ideal.rsqrt (x8 t + Cert.Gin.eps)) (funext fun a => Fin.ext ?_)
  match a with
  | ⟨0, _⟩ => rfl
  | ⟨1, _⟩ => exact Nat.mod_eq_of_lt (idx2_lt1 j)

/-- The first layer's second weight matrix. -/
theorem w2_1 (x9 : (⟨S3x64x64, .f32⟩ : BufTy).Contents (Elt Ideal)) (m : S64x64.Idx) :
    Read.val_main_v45 (F := Ideal) x9 m = x9 (ix3 (0 : Fin 3) (m 0) (m 1)) := by
  rw [Read.val_main_v45_apply, Read.val_main_v44_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The first layer's second bias, broadcast over the rows. -/
theorem b2_1 (x10 : (⟨S3x64, .f32⟩ : BufTy).Contents (Elt Ideal)) (j : S100000x64.Idx) :
    Read.val_main_v50 (F := Ideal) x10 j = x10 (ix2 (0 : Fin 3) (j 1)) := by
  rw [Read.val_main_v50_apply, Read.val_main_v49_apply, Read.val_main_v48_apply, Read.val_main_v47_apply]
  refine congrArg _ (funext fun a => Fin.ext ?_)
  match a with
  | ⟨0, _⟩ => rfl
  | ⟨1, _⟩ => exact Nat.mod_eq_of_lt (idx2_lt1 j)

/-- The first layer's hidden activations: entry `(r, k)` of the rectified, normalised first linear map is hidden unit `k`
    of row `r` of the input plus its aggregate. -/
theorem hid_1 (x0 : (⟨S100000x64, .f32⟩ : BufTy).Contents (Elt Ideal)) (x1 : (⟨S1200000, .i32⟩ : BufTy).Contents (Elt Ideal)) (x2 : (⟨S1200000, .i32⟩ : BufTy).Contents (Elt Ideal)) (x3 : (⟨S3x64x64, .f32⟩ : BufTy).Contents (Elt Ideal)) (x4 : (⟨S3x64, .f32⟩ : BufTy).Contents (Elt Ideal)) (x5 : (⟨S3x64, .f32⟩ : BufTy).Contents (Elt Ideal)) (x6 : (⟨S3x64, .f32⟩ : BufTy).Contents (Elt Ideal)) (x7 : (⟨S3x64, .f32⟩ : BufTy).Contents (Elt Ideal)) (x8 : (⟨S3x64, .f32⟩ : BufTy).Contents (Elt Ideal)) (j : S100000x64.Idx) :
    Read.val_main_v43 (F := Ideal) x0 x1 x2 x3 x4 x5 x6 x7 x8 j = hrow 0 x3 x4 x5 x6 x7 x8 x0 (agg x1 x2 x0) (j 0) (j 1) := by
  have hs : (∑ k : Fin 64, (Read.val_main_v11 (F := Ideal) x0 x1 x2) (Read.lidx_main_v14 j k) * (Read.val_main_v13 (F := Ideal) x3) (Read.ridx_main_v14 j k))
      = ∑ k : Fin 64, (x0 (ix2 (j 0) k) + agg x1 x2 x0 (ix2 (j 0) k)) * x3 (ix3 (0 : Fin 3) k (j 1)) :=
    Finset.sum_congr rfl fun k _ => by
      rw [w1_1, Read.val_main_v11_apply, agg_1]
      have e : Read.lidx_main_v14 j k = ix2 (j 0) k := funext fun a => by
        match a with
        | ⟨0, _⟩ => rfl
        | ⟨1, _⟩ => rfl
      rw [e]
      rfl
  rw [Read.val_main_v43_apply, Read.val_main_v42_apply, Read.val_main_v37_apply, Read.val_main_v29_apply, Read.val_main_v26_apply, Read.val_main_v19_apply, Read.val_main_v14_apply, hs, b1_1, gamma_1, mu_1, rstd_1, beta_1,
    Read.val_main_call0_v0_apply, Read.val_main_call0_cst_apply]
  rfl

/-- The first layer of the reference is the specification's layer 0 on the input features and their aggregate. -/
theorem layer1 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v52 (F := Ideal) x0 x1 x2 x3 x4 x5 x6 x7 x8 x9 x10 = Cert.Gin.layer true 0 x3 x4 x5 x6 x7 x8 x9 x10 x0 (agg x1 x2 x0) := by
  funext i
  have hs : (∑ k : Fin 64, (Read.val_main_v43 (F := Ideal) x0 x1 x2 x3 x4 x5 x6 x7 x8) (Read.lidx_main_v46 i k) * (Read.val_main_v45 (F := Ideal) x9) (Read.ridx_main_v46 i k))
      = ∑ k : Fin 64, hrow 0 x3 x4 x5 x6 x7 x8 x0 (agg x1 x2 x0) (i 0) k * x9 (ix3 (0 : Fin 3) k (i 1)) :=
    Finset.sum_congr rfl fun k _ => by
      rw [hid_1, w2_1]
      rfl
  rw [Read.val_main_v52_apply, Read.val_main_v51_apply, Read.val_main_v46_apply, hs, b2_1, Read.val_main_call1_v0_apply, Read.val_main_call1_cst_apply]
  rfl

/-! ### The second layer -/

/-- The second layer's first weight matrix: the slice of the stack, read as a 64 × 64 array. -/
theorem w1_2 (x3 : (⟨S3x64x64, .f32⟩ : BufTy).Contents (Elt Ideal)) (m : S64x64.Idx) :
    Read.val_main_v66 (F := Ideal) x3 m = x3 (ix3 (1 : Fin 3) (m 0) (m 1)) := by
  rw [Read.val_main_v66_apply, Read.val_main_v65_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The second layer's first bias, broadcast over the rows. -/
theorem b1_2 (x4 : (⟨S3x64, .f32⟩ : BufTy).Contents (Elt Ideal)) (j : S100000x64.Idx) :
    Read.val_main_v71 (F := Ideal) x4 j = x4 (ix2 (1 : Fin 3) (j 1)) := by
  rw [Read.val_main_v71_apply, Read.val_main_v70_apply, Read.val_main_v69_apply, Read.val_main_v68_apply]
  refine congrArg _ (funext fun a => Fin.ext ?_)
  match a with
  | ⟨0, _⟩ => rfl
  | ⟨1, _⟩ => exact Nat.mod_eq_of_lt (idx2_lt1 j)

/-- The second layer's scale, broadcast over the rows. -/
theorem gamma_2 (x5 : (⟨S3x64, .f32⟩ : BufTy).Contents (Elt Ideal)) (j : S100000x64.Idx) :
    Read.val_main_v81 (F := Ideal) x5 j = x5 (ix2 (1 : Fin 3) (j 1)) := by
  rw [Read.val_main_v81_apply, Read.val_main_v80_apply, Read.val_main_v74_apply, Read.val_main_v73_apply]
  refine congrArg _ (funext fun a => Fin.ext ?_)
  match a with
  | ⟨0, _⟩ => rfl
  | ⟨1, _⟩ => exact Nat.mod_eq_of_lt (idx2_lt1 j)

/-- The second layer's running mean, broadcast over the rows. -/
theorem mu_2 (x7 : (⟨S3x64, .f32⟩ : BufTy).Contents (Elt Ideal)) (j : S100000x64.Idx) :
    Read.val_main_v78 (F := Ideal) x7 j = x7 (ix2 (1 : Fin 3) (j 1)) := by
  rw [Read.val_main_v78_apply, Read.val_main_v77_apply, Read.val_main_v76_apply, Read.val_main_v75_apply]
  refine congrArg _ (funext fun a => Fin.ext ?_)
  match a with
  | ⟨0, _⟩ => rfl
  | ⟨1, _⟩ => exact Nat.mod_eq_of_lt (idx2_lt1 j)

/-- The second layer's shift, broadcast over the rows. -/
theorem beta_2 (x6 : (⟨S3x64, .f32⟩ : BufTy).Contents (Elt Ideal)) (j : S100000x64.Idx) :
    Read.val_main_v94 (F := Ideal) x6 j = x6 (ix2 (1 : Fin 3) (j 1)) := by
  rw [Read.val_main_v94_apply, Read.val_main_v93_apply, Read.val_main_v92_apply, Read.val_main_v91_apply]
  refine congrArg _ (funext fun a => Fin.ext ?_)
  match a with
  | ⟨0, _⟩ => rfl
  | ⟨1, _⟩ => exact Nat.mod_eq_of_lt (idx2_lt1 j)

/-- The second layer's reciprocal standard deviation `rsqrt (v + ε)`, computed on the 64 entries and broadcast over the rows. -/
theorem rstd_2 (x8 : (⟨S3x64, .f32⟩ : BufTy).Contents (Elt Ideal)) (j : S100000x64.Idx) :
    Read.val_main_v89 (F := Ideal) x8 j = Ideal.rsqrt (x8 (ix2 (1 : Fin 3) (j 1)) + Cert.Gin.eps) := by
  rw [Read.val_main_v89_apply, Read.val_main_v88_apply, Read.val_main_v87_apply, Read.val_main_v86_apply, Read.val_main_v85_apply, Read.val_main_cst_6_apply, Read.val_main_v84_apply, Read.val_main_v83_apply]
  refine congrArg (fun t => Ideal.rsqrt (x8 t + Cert.Gin.eps)) (funext fun a => Fin.ext ?_)
  match a with
  | ⟨0, _⟩ => rfl
  | ⟨1, _⟩ => exact Nat.mod_eq_of_lt (idx2_lt1 j)

/-- The second layer's second weight matrix. -/
theorem w2_2 (x9 : (⟨S3x64x64, .f32⟩ : BufTy).Contents (Elt Ideal)) (m : S64x64.Idx) :
    Read.val_main_v98 (F := Ideal) x9 m = x9 (ix3 (1 : Fin 3) (m 0) (m 1)) := by
  rw [Read.val_main_v98_apply, Read.val_main_v97_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The second layer's second bias, broadcast over the rows. -/
theorem b2_2 (x10 : (⟨S3x64, .f32⟩ : BufTy).Contents (Elt Ideal)) (j : S100000x64.Idx) :
    Read.val_main_v103 (F := Ideal) x10 j = x10 (ix2 (1 : Fin 3) (j 1)) := by
  rw [Read.val_main_v103_apply, Read.val_main_v102_apply, Read.val_main_v101_apply, Read.val_main_v100_apply]
  refine congrArg _ (funext fun a => Fin.ext ?_)
  match a with
  | ⟨0, _⟩ => rfl
  | ⟨1, _⟩ => exact Nat.mod_eq_of_lt (idx2_lt1 j)

/-- The second layer's hidden activations: entry `(r, k)` of the rectified, normalised first linear map is hidden unit `k`
    of row `r` of the input plus its aggregate. -/
theorem hid_2 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) (j : S100000x64.Idx) :
    Read.val_main_v96 (F := Ideal) x0 x1 x2 x3 x4 x5 x6 x7 x8 x9 x10 j = hrow 1 x3 x4 x5 x6 x7 x8 (Read.val_main_v52 (F := Ideal) x0 x1 x2 x3 x4 x5 x6 x7 x8 x9 x10) (agg x1 x2 (Read.val_main_v52 (F := Ideal) x0 x1 x2 x3 x4 x5 x6 x7 x8 x9 x10)) (j 0) (j 1) := by
  have hs : (∑ k : Fin 64, (Read.val_main_v64 (F := Ideal) x0 x1 x2 x3 x4 x5 x6 x7 x8 x9 x10) (Read.lidx_main_v67 j k) * (Read.val_main_v66 (F := Ideal) x3) (Read.ridx_main_v67 j k))
      = ∑ k : Fin 64, ((Read.val_main_v52 (F := Ideal) x0 x1 x2 x3 x4 x5 x6 x7 x8 x9 x10) (ix2 (j 0) k) + agg x1 x2 (Read.val_main_v52 (F := Ideal) x0 x1 x2 x3 x4 x5 x6 x7 x8 x9 x10) (ix2 (j 0) k)) * x3 (ix3 (1 : Fin 3) k (j 1)) :=
    Finset.sum_congr rfl fun k _ => by
      rw [w1_2, Read.val_main_v64_apply, agg_2]
      have e : Read.lidx_main_v67 j k = ix2 (j 0) k := funext fun a => by
        match a with
        | ⟨0, _⟩ => rfl
        | ⟨1, _⟩ => rfl
      rw [e]
      rfl
  rw [Read.val_main_v96_apply, Read.val_main_v95_apply, Read.val_main_v90_apply, Read.val_main_v82_apply, Read.val_main_v79_apply, Read.val_main_v72_apply, Read.val_main_v67_apply, hs, b1_2, gamma_2, mu_2, rstd_2, beta_2,
    Read.val_main_call2_v0_apply, Read.val_main_call2_cst_apply]
  rfl

/-- The second layer of the reference is the specification's layer 1 on the previous layer's output and its aggregate. -/
theorem layer2 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v105 (F := Ideal) x0 x1 x2 x3 x4 x5 x6 x7 x8 x9 x10 = Cert.Gin.layer true 1 x3 x4 x5 x6 x7 x8 x9 x10 (Read.val_main_v52 (F := Ideal) x0 x1 x2 x3 x4 x5 x6 x7 x8 x9 x10) (agg x1 x2 (Read.val_main_v52 (F := Ideal) x0 x1 x2 x3 x4 x5 x6 x7 x8 x9 x10)) := by
  funext i
  have hs : (∑ k : Fin 64, (Read.val_main_v96 (F := Ideal) x0 x1 x2 x3 x4 x5 x6 x7 x8 x9 x10) (Read.lidx_main_v99 i k) * (Read.val_main_v98 (F := Ideal) x9) (Read.ridx_main_v99 i k))
      = ∑ k : Fin 64, hrow 1 x3 x4 x5 x6 x7 x8 (Read.val_main_v52 (F := Ideal) x0 x1 x2 x3 x4 x5 x6 x7 x8 x9 x10) (agg x1 x2 (Read.val_main_v52 (F := Ideal) x0 x1 x2 x3 x4 x5 x6 x7 x8 x9 x10)) (i 0) k * x9 (ix3 (1 : Fin 3) k (i 1)) :=
    Finset.sum_congr rfl fun k _ => by
      rw [hid_2, w2_2]
      rfl
  rw [Read.val_main_v105_apply, Read.val_main_v104_apply, Read.val_main_v99_apply, hs, b2_2, Read.val_main_call3_v0_apply, Read.val_main_call3_cst_apply]
  rfl

/-! ### The third layer -/

/-- The third layer's first weight matrix: the slice of the stack, read as a 64 × 64 array. -/
theorem w1_3 (x3 : (⟨S3x64x64, .f32⟩ : BufTy).Contents (Elt Ideal)) (m : S64x64.Idx) :
    Read.val_main_v119 (F := Ideal) x3 m = x3 (ix3 (2 : Fin 3) (m 0) (m 1)) := by
  rw [Read.val_main_v119_apply, Read.val_main_v118_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The third layer's first bias, broadcast over the rows. -/
theorem b1_3 (x4 : (⟨S3x64, .f32⟩ : BufTy).Contents (Elt Ideal)) (j : S100000x64.Idx) :
    Read.val_main_v124 (F := Ideal) x4 j = x4 (ix2 (2 : Fin 3) (j 1)) := by
  rw [Read.val_main_v124_apply, Read.val_main_v123_apply, Read.val_main_v122_apply, Read.val_main_v121_apply]
  refine congrArg _ (funext fun a => Fin.ext ?_)
  match a with
  | ⟨0, _⟩ => rfl
  | ⟨1, _⟩ => exact Nat.mod_eq_of_lt (idx2_lt1 j)

/-- The third layer's scale, broadcast over the rows. -/
theorem gamma_3 (x5 : (⟨S3x64, .f32⟩ : BufTy).Contents (Elt Ideal)) (j : S100000x64.Idx) :
    Read.val_main_v134 (F := Ideal) x5 j = x5 (ix2 (2 : Fin 3) (j 1)) := by
  rw [Read.val_main_v134_apply, Read.val_main_v133_apply, Read.val_main_v127_apply, Read.val_main_v126_apply]
  refine congrArg _ (funext fun a => Fin.ext ?_)
  match a with
  | ⟨0, _⟩ => rfl
  | ⟨1, _⟩ => exact Nat.mod_eq_of_lt (idx2_lt1 j)

/-- The third layer's running mean, broadcast over the rows. -/
theorem mu_3 (x7 : (⟨S3x64, .f32⟩ : BufTy).Contents (Elt Ideal)) (j : S100000x64.Idx) :
    Read.val_main_v131 (F := Ideal) x7 j = x7 (ix2 (2 : Fin 3) (j 1)) := by
  rw [Read.val_main_v131_apply, Read.val_main_v130_apply, Read.val_main_v129_apply, Read.val_main_v128_apply]
  refine congrArg _ (funext fun a => Fin.ext ?_)
  match a with
  | ⟨0, _⟩ => rfl
  | ⟨1, _⟩ => exact Nat.mod_eq_of_lt (idx2_lt1 j)

/-- The third layer's shift, broadcast over the rows. -/
theorem beta_3 (x6 : (⟨S3x64, .f32⟩ : BufTy).Contents (Elt Ideal)) (j : S100000x64.Idx) :
    Read.val_main_v147 (F := Ideal) x6 j = x6 (ix2 (2 : Fin 3) (j 1)) := by
  rw [Read.val_main_v147_apply, Read.val_main_v146_apply, Read.val_main_v145_apply, Read.val_main_v144_apply]
  refine congrArg _ (funext fun a => Fin.ext ?_)
  match a with
  | ⟨0, _⟩ => rfl
  | ⟨1, _⟩ => exact Nat.mod_eq_of_lt (idx2_lt1 j)

/-- The third layer's reciprocal standard deviation `rsqrt (v + ε)`, computed on the 64 entries and broadcast over the rows. -/
theorem rstd_3 (x8 : (⟨S3x64, .f32⟩ : BufTy).Contents (Elt Ideal)) (j : S100000x64.Idx) :
    Read.val_main_v142 (F := Ideal) x8 j = Ideal.rsqrt (x8 (ix2 (2 : Fin 3) (j 1)) + Cert.Gin.eps) := by
  rw [Read.val_main_v142_apply, Read.val_main_v141_apply, Read.val_main_v140_apply, Read.val_main_v139_apply, Read.val_main_v138_apply, Read.val_main_cst_10_apply, Read.val_main_v137_apply, Read.val_main_v136_apply]
  refine congrArg (fun t => Ideal.rsqrt (x8 t + Cert.Gin.eps)) (funext fun a => Fin.ext ?_)
  match a with
  | ⟨0, _⟩ => rfl
  | ⟨1, _⟩ => exact Nat.mod_eq_of_lt (idx2_lt1 j)

/-- The third layer's second weight matrix. -/
theorem w2_3 (x9 : (⟨S3x64x64, .f32⟩ : BufTy).Contents (Elt Ideal)) (m : S64x64.Idx) :
    Read.val_main_v151 (F := Ideal) x9 m = x9 (ix3 (2 : Fin 3) (m 0) (m 1)) := by
  rw [Read.val_main_v151_apply, Read.val_main_v150_apply]
  refine congrArg _ (funext fun a => Fin.ext ?_)
  have h0 : (m 0).val < 64 := idx2_lt0 m
  have h1 : (m 1).val < 64 := idx2_lt1 m
  match a with
  | ⟨0, _⟩ => rfl
  | ⟨1, _⟩ => show ((m 0).val * 64 + (m 1).val) / 64 % 64 = (m 0).val; omega
  | ⟨2, _⟩ => show ((m 0).val * 64 + (m 1).val) % 64 = (m 1).val; omega

/-- The third layer's second bias, broadcast over the rows. -/
theorem b2_3 (x10 : (⟨S3x64, .f32⟩ : BufTy).Contents (Elt Ideal)) (j : S100000x64.Idx) :
    Read.val_main_v156 (F := Ideal) x10 j = x10 (ix2 (2 : Fin 3) (j 1)) := by
  rw [Read.val_main_v156_apply, Read.val_main_v155_apply, Read.val_main_v154_apply, Read.val_main_v153_apply]
  refine congrArg _ (funext fun a => Fin.ext ?_)
  match a with
  | ⟨0, _⟩ => rfl
  | ⟨1, _⟩ => exact Nat.mod_eq_of_lt (idx2_lt1 j)

/-- The third layer's hidden activations: entry `(r, k)` of the rectified, normalised first linear map is hidden unit `k`
    of row `r` of the input plus its aggregate. -/
theorem hid_3 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) (j : S100000x64.Idx) :
    Read.val_main_v149 (F := Ideal) x0 x1 x2 x3 x4 x5 x6 x7 x8 x9 x10 j = hrow 2 x3 x4 x5 x6 x7 x8 (Read.val_main_v105 (F := Ideal) x0 x1 x2 x3 x4 x5 x6 x7 x8 x9 x10) (agg x1 x2 (Read.val_main_v105 (F := Ideal) x0 x1 x2 x3 x4 x5 x6 x7 x8 x9 x10)) (j 0) (j 1) := by
  have hs : (∑ k : Fin 64, (Read.val_main_v117 (F := Ideal) x0 x1 x2 x3 x4 x5 x6 x7 x8 x9 x10) (Read.lidx_main_v120 j k) * (Read.val_main_v119 (F := Ideal) x3) (Read.ridx_main_v120 j k))
      = ∑ k : Fin 64, ((Read.val_main_v105 (F := Ideal) x0 x1 x2 x3 x4 x5 x6 x7 x8 x9 x10) (ix2 (j 0) k) + agg x1 x2 (Read.val_main_v105 (F := Ideal) x0 x1 x2 x3 x4 x5 x6 x7 x8 x9 x10) (ix2 (j 0) k)) * x3 (ix3 (2 : Fin 3) k (j 1)) :=
    Finset.sum_congr rfl fun k _ => by
      rw [w1_3, Read.val_main_v117_apply, agg_3]
      have e : Read.lidx_main_v120 j k = ix2 (j 0) k := funext fun a => by
        match a with
        | ⟨0, _⟩ => rfl
        | ⟨1, _⟩ => rfl
      rw [e]
      rfl
  rw [Read.val_main_v149_apply, Read.val_main_v148_apply, Read.val_main_v143_apply, Read.val_main_v135_apply, Read.val_main_v132_apply, Read.val_main_v125_apply, Read.val_main_v120_apply, hs, b1_3, gamma_3, mu_3, rstd_3, beta_3,
    Read.val_main_call4_v0_apply, Read.val_main_call4_cst_apply]
  rfl

/-- The third layer of the reference is the specification's layer 2 on the previous layer's output and its aggregate. -/
theorem layer3 (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v157 (F := Ideal) x0 x1 x2 x3 x4 x5 x6 x7 x8 x9 x10 = Cert.Gin.layer false 2 x3 x4 x5 x6 x7 x8 x9 x10 (Read.val_main_v105 (F := Ideal) x0 x1 x2 x3 x4 x5 x6 x7 x8 x9 x10) (agg x1 x2 (Read.val_main_v105 (F := Ideal) x0 x1 x2 x3 x4 x5 x6 x7 x8 x9 x10)) := by
  funext i
  have hs : (∑ k : Fin 64, (Read.val_main_v149 (F := Ideal) x0 x1 x2 x3 x4 x5 x6 x7 x8 x9 x10) (Read.lidx_main_v152 i k) * (Read.val_main_v151 (F := Ideal) x9) (Read.ridx_main_v152 i k))
      = ∑ k : Fin 64, hrow 2 x3 x4 x5 x6 x7 x8 (Read.val_main_v105 (F := Ideal) x0 x1 x2 x3 x4 x5 x6 x7 x8 x9 x10) (agg x1 x2 (Read.val_main_v105 (F := Ideal) x0 x1 x2 x3 x4 x5 x6 x7 x8 x9 x10)) (i 0) k * x9 (ix3 (2 : Fin 3) k (i 1)) :=
    Finset.sum_congr rfl fun k _ => by
      rw [hid_3, w2_3]
      rfl
  rw [Read.val_main_v157_apply, Read.val_main_v152_apply, hs, b2_3]
  rfl

/-! ### The whole program -/

/-- The reference's result is the specification's network with `agg` as the neighbour aggregate: the running sum starts
    from the array of zeros and adds the three layers' outputs, each layer fed the previous layer's output. -/
theorem result_eq (x0 : (⟨S100000x64, .f32⟩ : BufTy).Contents (Elt Ideal)) (x1 x2 : (⟨S1200000, .i32⟩ : BufTy).Contents (Elt Ideal)) (x3 : (⟨S3x64x64, .f32⟩ : BufTy).Contents (Elt Ideal)) (x4 x5 x6 x7 x8 : (⟨S3x64, .f32⟩ : BufTy).Contents (Elt Ideal)) (x9 : (⟨S3x64x64, .f32⟩ : BufTy).Contents (Elt Ideal)) (x10 : (⟨S3x64, .f32⟩ : BufTy).Contents (Elt Ideal)) :
    Read.val_main_v158 (F := Ideal) x0 x1 x2 x3 x4 x5 x6 x7 x8 x9 x10 = Cert.Gin.result (agg x1 x2) x0 x3 x4 x5 x6 x7 x8 x9 x10 := by
  funext i
  rw [Read.val_main_v158_apply, Read.val_main_v106_apply, Read.val_main_v53_apply, Read.val_main_v0_apply, Read.val_main_cst_apply,
    layer3, layer2, layer1]
  rfl

end Cert.Gin.Ref

end
-- ==== Proof.lean ====
/-
  The certificate's claims, assembled.

  The three frames are the generated ones (the reference's is its generated run with the result dropped); the ideal pass
  rewrote nothing, so `preserves` is trivial.  For `algebraic`: the kernel program's result buffer ends holding the
  specification's three-layer network of the arguments, with the kernel program's neighbour aggregation (its three regions
  are the three layers, computed 5000 rows at a time); the reference's result is the same network with the reference's
  aggregation (its run read one operation at a time); and the two aggregations are one term — the same gather of rows at
  the source indices scatter-added at the destination indices — so from memories that agree on the arguments the two
  results are equal, entry by entry, as extended reals.  No law of arithmetic is needed beyond reading both sides at an
  index: each sum over `k` appears with the same summands in the same order on both sides, and no finiteness is used.
-/
import proofs.«109376_j64518998720917_1_alg».proof.Defs
import proofs.«109376_j64518998720917_1_alg».proof.Proof.Gen.Kernel
import proofs.«109376_j64518998720917_1_alg».proof.Proof.Gen.Kernel.Skeleton
import proofs.«109376_j64518998720917_1_alg».proof.Proof.Gen.Kernel.Launch
import proofs.«109376_j64518998720917_1_alg».proof.Proof.Gen.Kernel.Points
import proofs.«109376_j64518998720917_1_alg».proof.Proof.Gen.Kernel.Frame
import proofs.«109376_j64518998720917_1_alg».proof.Proof.Gen.KernelIdeal
import proofs.«109376_j64518998720917_1_alg».proof.Proof.Gen.KernelIdeal.Skeleton
import proofs.«109376_j64518998720917_1_alg».proof.Proof.Gen.KernelIdeal.Launch
import proofs.«109376_j64518998720917_1_alg».proof.Proof.Gen.KernelIdeal.Points
import proofs.«109376_j64518998720917_1_alg».proof.Proof.Gen.KernelIdeal.Frame
import proofs.«109376_j64518998720917_1_alg».proof.Proof.Gen.ReferenceIdeal
import proofs.«109376_j64518998720917_1_alg».proof.Proof.Gen.ReferenceIdeal.Run
import proofs.«109376_j64518998720917_1_alg».proof.Proof.Gen.ReferenceIdeal.Read
import proofs.«109376_j64518998720917_1_alg».proof.Proof.Gen.Pre_finite_inputs
import proofs.«109376_j64518998720917_1_alg».proof.Proof.KRun
import proofs.«109376_j64518998720917_1_alg».proof.Proof.KFold
import proofs.«109376_j64518998720917_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs aggregate over the edges by the same operations: one term. -/
theorem agg_eq (src dst : (⟨Cert.KernelIdeal.S1200000, .i32⟩ : BufTy).Contents (Elt Ideal)) (h : Cert.Gin.Feat) :
    Cert.Gin.KFold.agg src dst h = Cert.Gin.Ref.agg src dst h := rfl

theorem algebraic : Cert.algebraic_KernelIdeal_ReferenceIdeal := by
  intro m ρ m' ρ' _ hagree
  refine ⟨fun c => Cert.Gin.result (Cert.Gin.KFold.agg (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    (θ_run Cert.KernelIdeal.defs _ _).mono
      (fun r h c => ⟨(h c).1.trans (Cert.Gin.KFold.kernel_value m ρ c), (h c).2⟩)
      (Cert.Gin.KRun.run_result (F := Ideal) m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v158_eq, Cert.Gin.Ref.result_eq]
  obtain ⟨e0, e1, e2, e3, e4, e5, e6, e7, e8, e9, e10⟩ := hagree c
  rw [e0, e1, e2, e3, e4, e5, e6, e7, e8, e9, e10]
  exact congrArg (fun a => Cert.Gin.result a (m ((c.tc : Thread Cert.KernelIdeal.nD Cert.KernelIdeal.τ).loc Cert.KernelIdeal.main_arg0))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)))
    (funext fun h => (agg_eq _ _ h).symm)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
